-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S4096x2048 : Shape := ⟨2, ![4096, 2048]⟩
abbrev S4096 : Shape := ⟨1, ![4096]⟩
abbrev S8192 : Shape := ⟨1, ![8192]⟩
abbrev S512 : Shape := ⟨1, ![512]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S4096 : S_.BroadcastsInDim S4096 (![] : Fin 0 → Fin S4096.rank)
  reducesTo_S4096_S_d0 : S4096.ReducesTo [0] S_
  bcast_S_S8192 : S_.BroadcastsInDim S8192 (![] : Fin 0 → Fin S8192.rank)
  reducesTo_S8192_S_d0 : S8192.ReducesTo [0] S_

variable [Facts]

def fn_part1 {F : FTy → Type} [FloatOps F] (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  main_v18

def fn {F : FTy → Type} [FloatOps F] (main_arg0 : FVec F S8192x2048 .f32) (main_arg1 : FVec F S4096x2048 .f32) (main_arg2 : FVec F S4096 .f32) (main_arg3 : FVec F S8192 .f32) (main_arg4 : IVec S512 32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_v13 main_v16
-- ==== Kernel.lean ====
abbrev S8192x2048 : Shape := ⟨2, ![8192, 2048]⟩
abbrev S4096x2048 : Shape := ⟨2, ![4096, 2048]⟩
abbrev S4096 : Shape := ⟨1, ![4096]⟩
abbrev S8192 : Shape := ⟨1, ![8192]⟩
abbrev S512 : Shape := ⟨1, ![512]⟩
abbrev S_ : Shape := ⟨0, ![]⟩
abbrev S2048 : Shape := ⟨1, ![2048]⟩
abbrev S512x1 : Shape := ⟨2, ![512, 1]⟩
abbrev S1x2048 : Shape := ⟨2, ![1, 2048]⟩
abbrev S1x4096 : Shape := ⟨2, ![1, 4096]⟩
abbrev S8192x1 : Shape := ⟨2, ![8192, 1]⟩
abbrev S512x2048 : Shape := ⟨2, ![512, 2048]⟩
abbrev S512x4096 : Shape := ⟨2, ![512, 4096]⟩
abbrev S512x64x64 : Shape := ⟨3, ![512, 64, 64]⟩
abbrev S512x64 : Shape := ⟨2, ![512, 64]⟩

abbrev nBuf : Space → Nat
  | .hbm => 29
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S4096x2048, .f32⟩
  | .hbm, ⟨2, _⟩ => ⟨S4096, .f32⟩
  | .hbm, ⟨3, _⟩ => ⟨S8192, .f32⟩
  | .hbm, ⟨4, _⟩ => ⟨S512, .i32⟩
  | .hbm, ⟨5, _⟩ => ⟨S_, .f32⟩
  | .hbm, ⟨6, _⟩ => ⟨S2048, .f32⟩
  | .hbm, ⟨7, _⟩ => ⟨S_, .i32⟩
  | .hbm, ⟨8, _⟩ => ⟨S512, .i32⟩
  | .hbm, ⟨9, _⟩ => ⟨S512, .i1⟩
  | .hbm, ⟨10, _⟩ => ⟨S_, .i32⟩
  | .hbm, ⟨11, _⟩ => ⟨S512, .i32⟩
  | .hbm, ⟨12, _⟩ => ⟨S512, .i32⟩
  | .hbm, ⟨13, _⟩ => ⟨S512, .i32⟩
  | .hbm, ⟨14, _⟩ => ⟨S512x1, .i32⟩
  | .hbm, ⟨15, _⟩ => ⟨S_, .f32⟩
  | .hbm, ⟨16, _⟩ => ⟨S512, .f32⟩
  | .hbm, ⟨17, _⟩ => ⟨S2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .i1⟩
  | .hbm, ⟨22, _⟩ => ⟨S4096x2048, .f32⟩
  | .hbm, ⟨23, _⟩ => ⟨S4096x2048, .i1⟩
  | .hbm, ⟨24, _⟩ => ⟨S4096x2048, .f32⟩
  | .hbm, ⟨25, _⟩ => ⟨S4096x2048, .bf16⟩
  | .hbm, ⟨26, _⟩ => ⟨S1x4096, .f32⟩
  | .hbm, ⟨27, _⟩ => ⟨S8192x1, .f32⟩
  | .hbm, ⟨28, _⟩ => ⟨S8192x1, .f32⟩
  | .local _ .vmem, ⟨0, _⟩ => ⟨S512x2048, .f32⟩
  | .local _ .vmem, ⟨1, _⟩ => ⟨S512x2048, .f32⟩
  | .local _ .vmem, ⟨2, _⟩ => ⟨S4096x2048, .bf16⟩
  | .local _ .vmem, ⟨3, _⟩ => ⟨S1x4096, .f32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S2048 : S_.BroadcastsInDim S2048 (![] : Fin 0 → Fin S2048.rank)
  bcast_S_S512 : S_.BroadcastsInDim S512 (![] : Fin 0 → Fin S512.rank)
  bcast_S512_S512x1_0 : S512.BroadcastsInDim S512x1 (![0] : Fin 1 → Fin S512x1.rank)
  bcast_S2048_S1x2048_1 : S2048.BroadcastsInDim S1x2048 (![1] : Fin 1 → Fin S1x2048.rank)
  bcast_S_S1x2048 : S_.BroadcastsInDim S1x2048 (![] : Fin 0 → Fin S1x2048.rank)
  bcast_S1x2048_S4096x2048_0_1 : S1x2048.BroadcastsInDim S4096x2048 (![0, 1] : Fin 2 → Fin S4096x2048.rank)
  bitsLt_bf16_f32 : FTy.bits .bf16 < FTy.bits .f32
  shapeCasts_S4096_S1x4096 : S4096.ShapeCasts S1x4096
  shapeCasts_S8192_S8192x1 : S8192.ShapeCasts S8192x1
  inb_S512x2048_S512x2048_0_0 : ∀ a, (![0, 0] : Fin 2 → Nat) a + S512x2048.size a ≤ S512x2048.size a
  h_S512x2048 : 0 < S512x2048.numel
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  shapeCasts_S512x4096_S512x64x64 : S512x4096.ShapeCasts S512x64x64
  reduces_S512x64x64_S512x64 : S512x64x64.Reduces [2] S512x64
  reduces_S512x64_S512 : S512x64.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  natLt_1_32 : 1 < 32
  scatter_S2048_S512x1_S512_n_0_0_1_wf : ScatterDims.WF S2048 S512x1 S512 [] [0] [0] 1
  dot_S512x2048_S4096x2048_S512x4096_1_1_0_0_n_n_wf : DotDims.WF S512x2048 S4096x2048 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x2048.size a ≤ S4096x2048.size a
  hwx0_1 : ∀ i : grid0.Coords, EltTy.bits .bf16 = 32 ∨ (Rect.block (s := S4096x2048) S4096x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)

variable [Facts₀]

def scatter_S2048_S512x1_S512_n_0_0_1 : ScatterDims S2048 S512x1 S512 where
  updateWindowDims := []
  insertedWindowDims := [0]
  scatterDimsToOperandDims := [0]
  indexVectorDim := 1
  wf := scatter_S2048_S512x1_S512_n_0_0_1_wf
def dot_S512x2048_S4096x2048_S512x4096_1_1_0_0_n_n : DotDims S512x2048 S4096x2048 S512x4096 where
  lhsContracting := [1]
  rhsContracting := [1]
  lhsNonContracting := [0]
  rhsNonContracting := [0]
  lhsBatch := []
  rhsBatch := []
  wf := dot_S512x2048_S4096x2048_S512x4096_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S4096x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S4096x2048 : Shape := ⟨2, ![4096, 2048]⟩
abbrev S4096 : Shape := ⟨1, ![4096]⟩
abbrev S8192 : Shape := ⟨1, ![8192]⟩
abbrev S512 : Shape := ⟨1, ![512]⟩
abbrev S_ : Shape := ⟨0, ![]⟩
abbrev S512x1 : Shape := ⟨2, ![512, 1]⟩
abbrev S4096x512 : Shape := ⟨2, ![4096, 512]⟩
abbrev S8192x4096 : Shape := ⟨2, ![8192, 4096]⟩
abbrev S1x4096 : Shape := ⟨2, ![1, 4096]⟩
abbrev S8192x64x64 : Shape := ⟨3, ![8192, 64, 64]⟩
abbrev S8192x64 : Shape := ⟨2, ![8192, 64]⟩
abbrev S8192x1 : Shape := ⟨2, ![8192, 1]⟩

abbrev nBuf : Space → Nat
  | .hbm => 44
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4096x2048, .f32⟩
  | .hbm, ⟨2, _⟩ => ⟨S4096, .f32⟩
  | .hbm, ⟨3, _⟩ => ⟨S8192, .f32⟩
  | .hbm, ⟨4, _⟩ => ⟨S512, .i32⟩
  | .hbm, ⟨5, _⟩ => ⟨S_, .i32⟩
  | .hbm, ⟨6, _⟩ => ⟨S512, .i32⟩
  | .hbm, ⟨7, _⟩ => ⟨S512, .i1⟩
  | .hbm, ⟨8, _⟩ => ⟨S_, .i32⟩
  | .hbm, ⟨9, _⟩ => ⟨S512, .i32⟩
  | .hbm, ⟨10, _⟩ => ⟨S512, .i32⟩
  | .hbm, ⟨11, _⟩ => ⟨S512, .i32⟩
  | .hbm, ⟨12, _⟩ => ⟨S512x1, .i32⟩
  | .hbm, ⟨13, _⟩ => ⟨S4096x512, .f32⟩
  | .hbm, ⟨14, _⟩ => ⟨S4096x512, .f32⟩
  | .hbm, ⟨15, _⟩ => ⟨S_, .i32⟩
  | .hbm, ⟨16, _⟩ => ⟨S512, .i32⟩
  | .hbm, ⟨17, _⟩ => ⟨S512, .i1⟩
  | .hbm, ⟨18, _⟩ => ⟨S_, .i32⟩
  | .hbm, ⟨19, _⟩ => ⟨S512, .i32⟩
  | .hbm, ⟨20, _⟩ => ⟨S512, .i32⟩
  | .hbm, ⟨21, _⟩ => ⟨S512, .i32⟩
  | .hbm, ⟨22, _⟩ => ⟨S512x1, .i32⟩
  | .hbm, ⟨23, _⟩ => ⟨S4096x2048, .f32⟩
  | .hbm, ⟨24, _⟩ => ⟨S8192x4096, .f32⟩
  | .hbm, ⟨25, _⟩ => ⟨S1x4096, .f32⟩
  | .hbm, ⟨26, _⟩ => ⟨S8192x4096, .f32⟩
  | .hbm, ⟨27, _⟩ => ⟨S8192x4096, .f32⟩
  | .hbm, ⟨28, _⟩ => ⟨S8192x64x64, .f32⟩
  | .hbm, ⟨29, _⟩ => ⟨S_, .f32⟩
  | .hbm, ⟨30, _⟩ => ⟨S8192x64, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S8192, .i1⟩
  | .hbm, ⟨42, _⟩ => ⟨S8192, .f32⟩
  | .hbm, ⟨43, _⟩ => ⟨S8192x1, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]

class Facts₀ : Prop where
  bcast_S_S512 : S_.BroadcastsInDim S512 (![] : Fin 0 → Fin S512.rank)
  bcast_S512_S512x1_0 : S512.BroadcastsInDim S512x1 (![0] : Fin 1 → Fin S512x1.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x4096_S8192x64x64 : S8192x4096.ShapeCasts S8192x64x64
  reducesTo_S8192x64x64_S8192x64_d2 : S8192x64x64.ReducesTo [2] S8192x64
  h_S_ : 0 < S_.numel
  reducesTo_S8192x64_S8192_d1 : S8192x64.ReducesTo [1] S8192
  bcast_S_S8192 : S_.BroadcastsInDim S8192 (![] : Fin 0 → Fin S8192.rank)
  shapeCasts_S8192_S8192x1 : S8192.ShapeCasts S8192x1
  gather_S4096x2048_S512x1_S4096x512_0_1_n_n_1_1_40961_wf : GatherDims.WF S4096x2048 S512x1 S4096x512 [0] [1] [] [1] [] 1 ![4096, 1]
  scatter_S4096x2048_S512x1_S4096x512_0_1_1_1_wf : ScatterDims.WF S4096x2048 S512x1 S4096x512 [0] [1] [1] 1
  dot_S8192x2048_S4096x2048_S8192x4096_1_1_0_0_n_n_wf : DotDims.WF S8192x2048 S4096x2048 S8192x4096 [1] [1] [0] [0] [] []

variable [Facts₀]

def gather_S4096x2048_S512x1_S4096x512_0_1_n_n_1_1_40961 : GatherDims S4096x2048 S512x1 S4096x512 where
  offsetDims := [0]
  collapsedSliceDims := [1]
  operandBatchingDims := []
  startIndicesBatchingDims := []
  startIndexMap := [1]
  indexVectorDim := 1
  sliceSizes := ![4096, 1]
  wf := gather_S4096x2048_S512x1_S4096x512_0_1_n_n_1_1_40961_wf
def scatter_S4096x2048_S512x1_S4096x512_0_1_1_1 : ScatterDims S4096x2048 S512x1 S4096x512 where
  updateWindowDims := [0]
  insertedWindowDims := [1]
  scatterDimsToOperandDims := [1]
  indexVectorDim := 1
  wf := scatter_S4096x2048_S512x1_S4096x512_0_1_1_1_wf
def dot_S8192x2048_S4096x2048_S8192x4096_1_1_0_0_n_n : DotDims S8192x2048 S4096x2048 S8192x4096 where
  lhsContracting := [1]
  rhsContracting := [1]
  lhsNonContracting := [0]
  rhsNonContracting := [0]
  lhsBatch := []
  rhsBatch := []
  wf := dot_S8192x2048_S4096x2048_S8192x4096_1_1_0_0_n_n_wf

class Facts : Prop extends Facts₀ where

variable [Facts]
-- ==== Proof.GroupGate.lean ====
/-
  The function both programs compute, row by row.

  For one batch row: the affine scores `y o = Σ_k x k · w o k + b o` of the 4096 output units; the units come in 64
  consecutive groups of 64, and the row's score is the MAXIMUM over the groups of the MINIMUM within each group
  (from the starting values +∞ and −∞, left as the patterns that denote them); the output is the indicator, as a
  float, of `r < logistic score` for the row's uniform draw `r`.

  The weights `w` are the given ones with some COLUMNS SQUARED: column `k` is squared exactly when one of the 512
  index words, already normalised (a negative word moved up by the row length) and read as a signed integer, is `k`.
  A word outside `[0, 2048)` names no column, and naming a column twice is naming it once.

  Also here: the few facts about single extended reals and bits that the two programs' spellings of this function
  differ by.
-/
import Idealize.ShloMosaic.PureOps.Ideal.Laws
import Idealize.ShloMosaic.Lib.ValueIdx

noncomputable section

namespace Cert.GroupGate

open Idealize.ShloMosaic Idealize.ShloMosaic.ValueIdx

/-- Column `k` is named by one of the index words. -/
def Named (nidx : IVec ⟨2, ![512, 1]⟩ 32) (k : Fin 2048) : Prop :=
  ∃ e : Fin 512, (nidx (ix2 e (0 : Fin 1))).toInt = (k.val : ℤ)

open Classical in
/-- The weights with the named columns squared. -/
def sqCols (W : FVec Ideal ⟨2, ![4096, 2048]⟩ .f32) (nidx : IVec ⟨2, ![512, 1]⟩ 32) (o : Fin 4096) (k : Fin 2048) : EReal :=
  if Named nidx k then W (ix2 o k) * W (ix2 o k) else W (ix2 o k)

/-- The maximum over the 64 groups of the minimum over each group's 64 consecutive units. -/
def groupScore (y : Fin 4096 → EReal) : EReal :=
  (Finset.univ : Finset (Fin 64)).fold (FloatOps.maximumf (F := Ideal) (φ := .f32)) (FloatOps.ofBits (F := Ideal) .f32 0xFF800000#32)
    (fun g => (Finset.univ : Finset (Fin 64)).fold (FloatOps.minimumf (F := Ideal) (φ := .f32))
      (FloatOps.ofBits (F := Ideal) .f32 0x7F800000#32)
      (fun s => y ⟨g.val * 64 + s.val, by have := g.isLt; have := s.isLt; omega⟩))

/-- The indicator, as a float, of `r < logistic v`. -/
def gate (r v : EReal) : EReal :=
  FloatOps.uitofp (F := Ideal) .f32 (FloatOps.cmpf (F := Ideal) (φ := .f32) .olt r (FloatOps.logistic (F := Ideal) (φ := .f32) v))

/-- One row: the gate of the row's draw against the group score of its affine scores. -/
def rowGate (xr : Fin 2048 → EReal) (w : Fin 4096 → Fin 2048 → EReal) (b : Fin 4096 → EReal) (r : EReal) : EReal :=
  gate r (groupScore fun o => (∑ k : Fin 2048, xr k * w o k) + b o)

/-- The whole result `[8192, 1]` as one function of the argument arrays and the normalised index words. -/
def result (x : FVec Ideal ⟨2, ![8192, 2048]⟩ .f32) (W : FVec Ideal ⟨2, ![4096, 2048]⟩ .f32) (bias : FVec Ideal ⟨1, ![4096]⟩ .f32)
    (rand : FVec Ideal ⟨1, ![8192]⟩ .f32) (nidx : IVec ⟨2, ![512, 1]⟩ 32) : FVec Ideal ⟨2, ![8192, 1]⟩ .f32 :=
  fun i => rowGate (fun k => x (ix2 (⟨(i 0).val, idx2_lt0 i⟩ : Fin 8192) k)) (sqCols W nidx) (fun o => bias (ix1 o))
    (rand (ix1 (⟨(i 0).val, idx2_lt0 i⟩ : Fin 8192)))

theorem result_apply (x : FVec Ideal ⟨2, ![8192, 2048]⟩ .f32) (W : FVec Ideal ⟨2, ![4096, 2048]⟩ .f32) (bias : FVec Ideal ⟨1, ![4096]⟩ .f32)
    (rand : FVec Ideal ⟨1, ![8192]⟩ .f32) (nidx : IVec ⟨2, ![512, 1]⟩ 32) (b : Fin 8192) (z : Fin 1) :
    result x W bias rand nidx (ix2 b z)
      = rowGate (fun k => x (ix2 b k)) (sqCols W nidx) (fun o => bias (ix1 o)) (rand (ix1 b)) := rfl

/-! ## Single values -/

/-- The pattern `0x3F800000` denotes one. -/
theorem one_word : Ideal.ofBits .f32 0x3F800000#32 = 1 := by
  simp [Ideal.ofBits, Ideal.ieee, -EReal.coe_mul]; norm_num

/-- `1 / (1 + exp (−v))`, spelled with the host's operations and the pattern of one, is the logistic of `v`, at every
    extended real. -/
theorem logistic_spelled (v : Ideal .f32) :
    FloatOps.hostDivf (F := Ideal) (φ := .f32) (FloatOps.ofBits .f32 0x3F800000#32)
      (FloatOps.addf (FloatOps.ofBits .f32 0x3F800000#32) (FloatOps.hostUnary .exp (FloatOps.hostNegf v)))
    = FloatOps.logistic v := by
  show Ideal.div (Ideal.ofBits .f32 0x3F800000#32) (Ideal.ofBits .f32 0x3F800000#32 + _) = _
  rw [one_word]; rfl

/-- A bit widened to 32 bits and read signed is the bit read unsigned: 0 or 1. -/
theorem sitofp_widened_bit (c : BitVec 1) :
    FloatOps.sitofp (F := Ideal) .f32 (c.setWidth 32) = FloatOps.uitofp (F := Ideal) .f32 c := by
  have h : ∀ b : BitVec 1, (b.setWidth 32).toInt = (b.toNat : ℤ) := by decide
  show (((c.setWidth 32).toInt : ℝ) : EReal) = ((c.toNat : ℝ) : EReal)
  rw [h c]; simp

/-- One is greater than zero: a marked column's mask entry passes the test. -/
theorem one_gt_zero_bit :
    FloatOps.cmpf (F := Ideal) (φ := .f32) .ogt (FloatOps.ofBits .f32 0x3F800000#32) (FloatOps.ofBits .f32 0x00000000#32) = 1#1 := by
  show Ideal.cmp .ogt (Ideal.ofBits .f32 0x3F800000#32) (Ideal.ofBits .f32 0x00000000#32) = 1#1
  rw [one_word, Ideal.ofBits_zero_f32]
  simp [Ideal.cmp]

/-- Zero is not greater than zero: an unmarked column's mask entry fails it. -/
theorem zero_gt_zero_bit :
    FloatOps.cmpf (F := Ideal) (φ := .f32) .ogt (FloatOps.ofBits .f32 0x00000000#32) (FloatOps.ofBits .f32 0x00000000#32) = 0#1 := by
  show Ideal.cmp .ogt (Ideal.ofBits .f32 0x00000000#32) (Ideal.ofBits .f32 0x00000000#32) = 0#1
  rw [Ideal.ofBits_zero_f32]
  simp [Ideal.cmp]

end Cert.GroupGate

end
-- ==== Proof.LibFoldLast.lean ====
/-
  Minimum and maximum reductions over the LAST axis, read at an index as a fold over that axis's coordinate.

  A `vector.multi_reduction <minimumf>` / `<maximumf>` and the host's one-operand `stablehlo.reduce` with a
  commutative and associative body fold, at a result index, over the set of source indices that drop to it. For the
  last axis of a rank-3 array `[A, B, C]` that set is `{(p, g, k) | k < C}` at the result index `(p, g)`, and for the
  last axis of a matrix `[A, B]` it is `{(p, k) | k < B}` at `p`: the folds below run over `k`, from the starting
  value left as it is written (the pattern of an infinity is never evaluated). All extents are arbitrary, so one
  statement serves a kernel's block and a reference's whole array.
-/
import Idealize.ShloMosaic.PureOps.Ideal.Laws
import Idealize.ShloMosaic.Lib.ValueIdx

noncomputable section

namespace Cert.Lib.FoldLast

open Idealize.ShloMosaic Idealize.ShloMosaic.ValueIdx

/-- The source index over `(p, g)` with `k` inserted on the last axis of a rank-3 shape is `(p, g, k)`. -/
theorem lift_last3 {A B C : Nat} (h : (⟨3, ![A, B, C]⟩ : Shape).Reduces [(2 : Fin 3)] ⟨2, ![A, B]⟩)
    (p : Fin A) (g : Fin B) (k : Fin C) : h.lift (ix2 p g) k = ix3 p g k := by
  funext c
  apply Fin.ext
  match c with
  | ⟨0, _⟩ => rfl
  | ⟨1, _⟩ => rfl
  | ⟨2, _⟩ => rfl

/-- The source index over `p` with `k` inserted on the last axis of a matrix is `(p, k)`. -/
theorem lift_last2 {A B : Nat} (h : (⟨2, ![A, B]⟩ : Shape).Reduces [(1 : Fin 2)] ⟨1, ![A]⟩)
    (p : Fin A) (k : Fin B) : h.lift (ix1 p) k = ix2 p k := by
  funext c
  apply Fin.ext
  match c with
  | ⟨0, _⟩ => rfl
  | ⟨1, _⟩ => rfl

variable {φ : FTy}

/-- A `multi_reduction <minimumf>` over the last axis of `[A, B, C]` at `(p, g)`: the fold of the minimum over `k` of
    the source at `(p, g, k)`. -/
theorem multiReduction_min_last3 {A B C : Nat} (x : FVec Ideal ⟨3, ![A, B, C]⟩ φ) (acc : BitVec φ.bits)
    (h : (⟨3, ![A, B, C]⟩ : Shape).Reduces [(2 : Fin 3)] ⟨2, ![A, B]⟩) (hφ : FKind.Formats φ)
    (hacc : acc = FKind.minimumf.neutral φ hφ) (p : Fin A) (g : Fin B) :
    multiReduction .minimumf [(2 : Fin 3)] ⟨2, ![A, B]⟩ x acc h hφ hacc (ix2 p g)
      = (Finset.univ : Finset (Fin C)).fold FloatOps.minimumf (FloatOps.ofBits φ acc) (fun k => x (ix3 p g k)) := by
  rw [multiReduction_minimumf_eq_fold]
  refine (h.fold_filter_drop_single _ _ x (ix2 p g)).trans ?_
  exact congrArg (fun f => Finset.fold FloatOps.minimumf (FloatOps.ofBits φ acc) f (Finset.univ : Finset (Fin C)))
    (funext fun k => congrArg x (lift_last3 h p g k))

/-- A `multi_reduction <maximumf>` along the rows of `[A, B]` at `p`: the fold of the maximum over `k` of the source
    at `(p, k)`. -/
theorem multiReduction_max_last2 {A B : Nat} (x : FVec Ideal ⟨2, ![A, B]⟩ φ) (acc : BitVec φ.bits)
    (h : (⟨2, ![A, B]⟩ : Shape).Reduces [(1 : Fin 2)] ⟨1, ![A]⟩) (hφ : FKind.Formats φ)
    (hacc : acc = FKind.maximumf.neutral φ hφ) (p : Fin A) :
    multiReduction .maximumf [(1 : Fin 2)] ⟨1, ![A]⟩ x acc h hφ hacc (ix1 p)
      = (Finset.univ : Finset (Fin B)).fold FloatOps.maximumf (FloatOps.ofBits φ acc) (fun k => x (ix2 p k)) := by
  rw [multiReduction_maximumf_eq_fold]
  refine (h.fold_filter_drop_single _ _ x (ix1 p)).trans ?_
  exact congrArg (fun f => Finset.fold FloatOps.maximumf (FloatOps.ofBits φ acc) f (Finset.univ : Finset (Fin B)))
    (funext fun k => congrArg x (lift_last2 h p k))

/-- The host's reduce with a commutative and associative body over the last axis of `[A, B, C]` at `(p, g)`: the fold
    over `k` of the operand at `(p, g, k)`, from the rank-0 initial value's one element. -/
theorem hostReduce_last3 {α : Type} {A B C : Nat} {u : Shape} (f : α → α → α) [Std.Commutative f] [Std.Associative f]
    (x : (⟨3, ![A, B, C]⟩ : Shape).Idx → α) (init : u.Idx → α)
    (h' : (⟨3, ![A, B, C]⟩ : Shape).ReducesTo [(2 : Fin 3)] ⟨2, ![A, B]⟩)
    (h : (⟨3, ![A, B, C]⟩ : Shape).Reduces [(2 : Fin 3)] ⟨2, ![A, B]⟩) (hu : 0 < u.numel) (p : Fin A) (g : Fin B) :
    Host.reduce f x init h' hu (ix2 p g)
      = (Finset.univ : Finset (Fin C)).fold f (init (Shape.Idx.first hu)) (fun k => x (ix3 p g k)) := by
  refine (Host.reduce_eq_fold_single f x init h' h hu (ix2 p g)).trans ?_
  exact congrArg (fun y => Finset.fold f (init (Shape.Idx.first hu)) y (Finset.univ : Finset (Fin C)))
    (funext fun k => congrArg x (lift_last3 h p g k))

/-- The same along the rows of a matrix `[A, B]` at `p`. -/
theorem hostReduce_last2 {α : Type} {A B : Nat} {u : Shape} (f : α → α → α) [Std.Commutative f] [Std.Associative f]
    (x : (⟨2, ![A, B]⟩ : Shape).Idx → α) (init : u.Idx → α)
    (h' : (⟨2, ![A, B]⟩ : Shape).ReducesTo [(1 : Fin 2)] ⟨1, ![A]⟩)
    (h : (⟨2, ![A, B]⟩ : Shape).Reduces [(1 : Fin 2)] ⟨1, ![A]⟩) (hu : 0 < u.numel) (p : Fin A) :
    Host.reduce f x init h' hu (ix1 p)
      = (Finset.univ : Finset (Fin B)).fold f (init (Shape.Idx.first hu)) (fun k => x (ix2 p k)) := by
  refine (Host.reduce_eq_fold_single f x init h' h hu (ix1 p)).trans ?_
  exact congrArg (fun y => Finset.fold f (init (Shape.Idx.first hu)) y (Finset.univ : Finset (Fin B)))
    (funext fun k => congrArg x (lift_last2 h p k))

end Cert.Lib.FoldLast

end
-- ==== Proof.KernelPayload.lean ====
/-
  The kernel body's stored value, read at one entry of its [512, 1] block.

  The body multiplies its 512 rows of `x` with the whole weight block, contracting the 2048 columns of both, adds the
  bias row, regroups each row's 4096 scores as 64 groups of 64, takes the minimum inside each group and the maximum
  over the groups, and stores the indicator of `draw < logistic score`. Entry `(p, 0)` therefore depends on row `p` of
  the `x` block, on all of the weights and the bias, and on draw `p`: it is `rowGate` of these.
  A change of float format is the identity here, and a cast to the same shape moves nothing.
-/
import proofs.«118857_j61555471286542_1_alg».proof.Proof.Gen.KernelIdeal.Skeleton
import proofs.«118857_j61555471286542_1_alg».proof.Proof.GroupGate
import proofs.«118857_j61555471286542_1_alg».proof.Proof.LibFoldLast
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx Cert.GroupGate

/-! ## The product: row `p` of the left operand against row `o` of the right, over their 2048 columns -/

theorem lhs_row (i : S512x4096.Idx) (q : dot_S512x2048_S4096x2048_S512x4096_1_1_0_0_n_n.contr.Idx) :
    (dot_S512x2048_S4096x2048_S512x4096_1_1_0_0_n_n.lhsIdx i q 0).val = (i 0).val := by
  unfold DotDims.lhsIdx
  rw [dif_neg (show ¬(0 : Fin S512x2048.rank) ∈ dot_S512x2048_S4096x2048_S512x4096_1_1_0_0_n_n.lhsBatch by decide),
    dif_pos (show (0 : Fin S512x2048.rank) ∈ dot_S512x2048_S4096x2048_S512x4096_1_1_0_0_n_n.lhsNonContracting by decide)]
  rfl
theorem lhs_col (i : S512x4096.Idx) (q : dot_S512x2048_S4096x2048_S512x4096_1_1_0_0_n_n.contr.Idx) :
    (dot_S512x2048_S4096x2048_S512x4096_1_1_0_0_n_n.lhsIdx i q 1).val = (q ⟨0, by decide⟩).val :=
  dot_S512x2048_S4096x2048_S512x4096_1_1_0_0_n_n.lhsIdx_val_of_single rfl i q
theorem rhs_row (i : S512x4096.Idx) (q : dot_S512x2048_S4096x2048_S512x4096_1_1_0_0_n_n.contr.Idx) :
    (dot_S512x2048_S4096x2048_S512x4096_1_1_0_0_n_n.rhsIdx i q 0).val = (i 1).val := by
  unfold DotDims.rhsIdx
  rw [dif_neg (show ¬(0 : Fin S4096x2048.rank) ∈ dot_S512x2048_S4096x2048_S512x4096_1_1_0_0_n_n.rhsBatch by decide),
    dif_pos (show (0 : Fin S4096x2048.rank) ∈ dot_S512x2048_S4096x2048_S512x4096_1_1_0_0_n_n.rhsNonContracting by decide)]
  rfl
theorem rhs_col (i : S512x4096.Idx) (q : dot_S512x2048_S4096x2048_S512x4096_1_1_0_0_n_n.contr.Idx) :
    (dot_S512x2048_S4096x2048_S512x4096_1_1_0_0_n_n.rhsIdx i q 1).val = (q ⟨0, by decide⟩).val :=
  dot_S512x2048_S4096x2048_S512x4096_1_1_0_0_n_n.rhsIdx_val_of_single rfl i q

/-- The product into the zero accumulator at `(p, o)`: the sum over `k` of `a (p, k) · b (o, k)`. -/
theorem matmul_at (a : FVec Ideal S512x2048 .bf16) (b : FVec Ideal S4096x2048 .bf16) (p : Fin 512) (o : Fin 4096) :
    matmul dot_S512x2048_S4096x2048_S512x4096_1_1_0_0_n_n none a b (constant (F := Ideal) S512x4096 .f32 0x00000000#32) (ix2 p o)
      = ∑ k : Fin 2048, a (ix2 p k) * b (ix2 o k) := by
  simp only [matmul]
  rw [Ideal.matmul_constant_zero_apply, ← Equiv.sum_comp (contrEquiv1 dot_S512x2048_S4096x2048_S512x4096_1_1_0_0_n_n 2048 rfl rfl).symm]
  refine Finset.sum_congr rfl fun k _ => ?_
  have hk := contrEquiv1_symm_val dot_S512x2048_S4096x2048_S512x4096_1_1_0_0_n_n 2048 rfl rfl k
  have el : dot_S512x2048_S4096x2048_S512x4096_1_1_0_0_n_n.lhsIdx (ix2 p o) ((contrEquiv1 dot_S512x2048_S4096x2048_S512x4096_1_1_0_0_n_n 2048 rfl rfl).symm k) = ix2 p k := funext fun c => Fin.ext (by
    match c with
    | ⟨0, _⟩ => exact lhs_row _ _
    | ⟨1, _⟩ => exact (lhs_col _ _).trans hk)
  have er : dot_S512x2048_S4096x2048_S512x4096_1_1_0_0_n_n.rhsIdx (ix2 p o) ((contrEquiv1 dot_S512x2048_S4096x2048_S512x4096_1_1_0_0_n_n 2048 rfl rfl).symm k) = ix2 o k := funext fun c => Fin.ext (by
    match c with
    | ⟨0, _⟩ => exact rhs_row _ _
    | ⟨1, _⟩ => exact (rhs_col _ _).trans hk)
  rw [el, er]

/-- The affine scores at `(p, o)`: the product plus entry `o` of the bias row. -/
theorem affine_at (a : FVec Ideal S512x2048 .bf16) (b : FVec Ideal S4096x2048 .bf16) (c : FVec Ideal S1x4096 .f32)
    (p : Fin 512) (o : Fin 4096) :
    addf (matmul dot_S512x2048_S4096x2048_S512x4096_1_1_0_0_n_n none a b (constant (F := Ideal) S512x4096 .f32 0x00000000#32))
        (broadcastTo S512x4096 c broadcasts_S1x4096_S512x4096) (ix2 p o)
      = (∑ k : Fin 2048, a (ix2 p k) * b (ix2 o k)) + c (ix2 (0 : Fin 1) o) := by
  show matmul dot_S512x2048_S4096x2048_S512x4096_1_1_0_0_n_n none a b (constant (F := Ideal) S512x4096 .f32 0x00000000#32) (ix2 p o)
      + broadcastTo S512x4096 c broadcasts_S1x4096_S512x4096 (ix2 p o) = _
  rw [matmul_at, broadcastTo_apply c broadcasts_S1x4096_S512x4096 (ix2 p o) (ix2 (0 : Fin 1) o) (fun a => by
    match a with
    | ⟨0, _⟩ => show (0 : ℕ) = if (1 : ℕ) = 1 then 0 else _; rw [if_pos rfl]
    | ⟨1, _⟩ => show o.val = if (4096 : ℕ) = 1 then 0 else o.val; rw [if_neg (by decide)])]

/-! ## Regrouping a row's 4096 scores as 64 groups of 64, and the two reductions -/

/-- Entry `(p, g, s)` of the regrouped array is score `64 g + s` of row `p`. -/
theorem regroup_at (y : FVec Ideal S512x4096 .f32) (p : Fin 512) (g s : Fin 64) :
    shapeCast S512x64x64 y shapeCasts_S512x4096_S512x64x64 (ix3 p g s)
      = y (ix2 p (⟨g.val * 64 + s.val, by have := g.isLt; have := s.isLt; omega⟩ : Fin 4096)) :=
  shapeCast_apply y shapeCasts_S512x4096_S512x64x64 (ix3 p g s) _ (by
    rw [Shape.rowMajor_val_two, Shape.rowMajor_val_three]
    show p.val * 4096 + (g.val * 64 + s.val) = (p.val * 64 + g.val) * 64 + s.val
    omega)

/-- The minimum within group `g` of row `p`. -/
theorem groupMin_at (y : FVec Ideal S512x4096 .f32) (p : Fin 512) (g : Fin 64) :
    multiReduction (F := Ideal) .minimumf [2] S512x64 (shapeCast S512x64x64 y shapeCasts_S512x4096_S512x64x64) 0x7F800000#32
        reduces_S512x64x64_S512x64 (.inl rfl) rfl (ix2 p g)
      = (Finset.univ : Finset (Fin 64)).fold (FloatOps.minimumf (F := Ideal) (φ := .f32)) (FloatOps.ofBits (F := Ideal) .f32 0x7F800000#32)
          (fun s => y (ix2 p (⟨g.val * 64 + s.val, by have := g.isLt; have := s.isLt; omega⟩ : Fin 4096))) := by
  have h := Cert.Lib.FoldLast.multiReduction_min_last3 (φ := .f32) (A := 512) (B := 64) (C := 64)
    (shapeCast S512x64x64 y shapeCasts_S512x4096_S512x64x64) 0x7F800000#32 reduces_S512x64x64_S512x64 (.inl rfl) rfl p g
  refine h.trans ?_
  exact congrArg (fun f => Finset.fold (FloatOps.minimumf (F := Ideal) (φ := .f32)) (FloatOps.ofBits (F := Ideal) .f32 0x7F800000#32) f
    (Finset.univ : Finset (Fin 64))) (funext fun s => regroup_at y p g s)

/-- The maximum over the groups of the minimum within each group, for row `p`. -/
theorem score_at (y : FVec Ideal S512x4096 .f32) (p : Fin 512) :
    multiReduction (F := Ideal) .maximumf [1] S512
        (multiReduction (F := Ideal) .minimumf [2] S512x64 (shapeCast S512x64x64 y shapeCasts_S512x4096_S512x64x64) 0x7F800000#32
          reduces_S512x64x64_S512x64 (.inl rfl) rfl)
        0xFF800000#32 reduces_S512x64_S512 (.inl rfl) rfl (ix1 p)
      = groupScore (fun o => y (ix2 p o)) := by
  have h := Cert.Lib.FoldLast.multiReduction_max_last2 (φ := .f32) (A := 512) (B := 64)
    (multiReduction (F := Ideal) .minimumf [2] S512x64 (shapeCast S512x64x64 y shapeCasts_S512x4096_S512x64x64) 0x7F800000#32
      reduces_S512x64x64_S512x64 (.inl rfl) rfl)
    0xFF800000#32 reduces_S512x64_S512 (.inl rfl) rfl p
  refine h.trans ?_
  unfold groupScore
  exact congrArg (fun f => Finset.fold (FloatOps.maximumf (F := Ideal) (φ := .f32)) (FloatOps.ofBits (F := Ideal) .f32 0xFF800000#32) f
    (Finset.univ : Finset (Fin 64))) (funext fun g => groupMin_at y p g)

/-- A vector `[512]` recast as a column `[512, 1]`, at `(p, 0)`: entry `p`. -/
theorem column_at (v : FVec Ideal S512 .f32) (p : Fin 512) (z : Fin 1) :
    shapeCast S512x1 v shapeCasts_S512_S512x1 (ix2 p z) = v (ix1 p) :=
  shapeCast_apply v shapeCasts_S512_S512x1 (ix2 p z) (ix1 p) (by
    rw [Shape.rowMajor_val_one, Shape.rowMajor_val_two]
    show p.val = p.val * 1 + z.val
    have := z.isLt; omega)

/-! ## The stored value at `(p, 0)` -/

/-- The body's stored value at `(p, 0)` is the row function of row `p` of the `x` block, the weight block, the bias row
    and draw `p`. -/
theorem pay_apply (v0 : FVec Ideal S512x2048 .f32) (v2 : FVec Ideal S4096x2048 .bf16) (v5 : FVec Ideal S1x4096 .f32)
    (v14 : FVec Ideal S512x1 .f32) (p : Fin 512) (z : Fin 1) :
    k0_pay1 (F := Ideal) v0 v2 v5 v14 (ix2 p z)
      = rowGate (fun k => v0 (ix2 p k)) (fun o k => v2 (ix2 o k)) (fun o => v5 (ix2 (0 : Fin 1) o)) (v14 (ix2 p z)) := by
  unfold k0_pay1
  dsimp only
  rw [shapeCast_self v14 shapeCasts_S512x1_S512x1, shapeCast_self v2 shapeCasts_S4096x2048_S4096x2048,
    shapeCast_self v5 shapeCasts_S1x4096_S1x4096]
  refine (sitofp_widened_bit _).trans ?_
  unfold rowGate gate
  refine congrArg (fun t => FloatOps.uitofp (F := Ideal) .f32 (FloatOps.cmpf (F := Ideal) (φ := .f32) .olt (v14 (ix2 p z))
    (FloatOps.logistic (F := Ideal) (φ := .f32) t))) ?_
  refine (column_at _ p z).trans ((score_at _ p).trans (congrArg groupScore (funext fun o => ?_)))
  exact affine_at _ v2 v5 p o

end Cert.KernelIdeal.Payload

end
-- ==== Proof.LibWindowScatter.lean ====
/-
  A scatter whose body returns the update, read at an index.

  The host's scatter is a left fold of point updates over the update's indices in row-major order.
  When the body keeps the update and discards the old value, the fold at an index i is the update at
  the one update index that lands on i, and the operand at i when no update index lands there.
  The special case of one whole H x W window written at a fixed start (r0, c0) into an A x B array
  follows: inside the window the result is the update at the offset (p - r0, q - c0), outside it is
  the operand.
-/
import Idealize.ShloMosaic.PureOps.Ideal
import Idealize.ShloMosaic.Lib.ValueIdx

namespace Cert.Lib.WindowScatter

open Idealize.ShloMosaic Idealize.ShloMosaic.ValueIdx

/-! ## A left fold of point updates, read at one index -/

/-- A left fold whose step leaves the value at i alone for every list member outside P
    leaves the starting array's value at i, when no member of the list is in P. -/
theorem foldl_miss {ι κ α : Type} (g : (ι → α) → κ → (ι → α)) (i : ι) (P : κ → Prop)
    (hmiss : ∀ r n, ¬ P n → g r n i = r i) :
    ∀ (l : List κ) (x : ι → α), (∀ n ∈ l, ¬ P n) → l.foldl g x i = x i := by
  intro l
  induction l with
  | nil => intro x _; rfl
  | cons a l ih =>
    intro x h
    rw [List.foldl_cons, ih (g x a) (fun n hn => h n (List.mem_cons_of_mem a hn)),
      hmiss x a (h a (by simp))]

/-- A left fold over a list without duplicates whose step writes val n at i for the members n in P
    and leaves the value at i alone for the others gives val n0 at i, when n0 is the only member in P. -/
theorem foldl_hit {ι κ α : Type} (g : (ι → α) → κ → (ι → α)) (i : ι) (P : κ → Prop) (val : κ → α)
    (hmiss : ∀ r n, ¬ P n → g r n i = r i) (hhit : ∀ r n, P n → g r n i = val n) (n0 : κ) (hP : P n0) :
    ∀ (l : List κ) (x : ι → α), l.Nodup → n0 ∈ l → (∀ n ∈ l, P n → n = n0) → l.foldl g x i = val n0 := by
  intro l
  induction l with
  | nil => intro x _ hmem _; exact absurd hmem (by simp)
  | cons a l ih =>
    intro x hnd hmem huniq
    rw [List.foldl_cons]
    rw [List.nodup_cons] at hnd
    by_cases ha : a = n0
    · subst ha
      rw [foldl_miss g i P hmiss l (g x a) (fun n hn hPn => by
        have := huniq n (List.mem_cons_of_mem a hn) hPn
        subst this
        exact hnd.1 hn)]
      exact hhit x a hP
    · have hmem' : n0 ∈ l := by
        rcases List.mem_cons.1 hmem with h | h
        · exact absurd h.symm ha
        · exact h
      exact ih (g x a) hnd.2 hmem' (fun n hn => huniq n (List.mem_cons_of_mem a hn))

/-! ## The host's scatter with the body that returns the update -/

section Scatter
variable {s si u : Shape} {w : Nat} {α : Type}

/-- A scatter whose body returns the update, read at an index exactly one update index lands on:
    the result there is the update at that update index. -/
theorem scatter_set_hit (d : ScatterDims s si u) (x : s.Idx → α) (idx : IVec si w) (upd : u.Idx → α)
    (j : u.Idx) (i : s.Idx) (hj : d.resultIdx? j idx = some i)
    (hinj : ∀ j', d.resultIdx? j' idx = some i → j' = j) :
    Host.scatter d (fun _ b => b) x idx upd i = upd j := by
  unfold Host.scatter
  have key := foldl_hit
    (fun (r : s.Idx → α) (n : Fin u.numel) =>
      match d.resultIdx? (u.rowMajor.symm n) idx with
      | some i0 => fun i' => if i' = i0 then (fun (_ b : α) => b) (r i0) (upd (u.rowMajor.symm n)) else r i'
      | none => r)
    i (fun n => d.resultIdx? (u.rowMajor.symm n) idx = some i) (fun n => upd (u.rowMajor.symm n))
    (by
      intro r n hn
      revert hn
      generalize d.resultIdx? (u.rowMajor.symm n) idx = o
      intro hn
      cases o with
      | none => rfl
      | some i0 =>
        have hne : i ≠ i0 := fun e => hn (by rw [e])
        exact if_neg hne)
    (by
      intro r n hn
      revert hn
      generalize d.resultIdx? (u.rowMajor.symm n) idx = o
      intro hn
      subst hn
      exact if_pos rfl)
    (u.rowMajor j) (by show d.resultIdx? (u.rowMajor.symm (u.rowMajor j)) idx = some i; rw [Equiv.symm_apply_apply]; exact hj)
    (List.finRange u.numel) x (List.nodup_finRange _) (List.mem_finRange _)
    (by
      intro n _ hn
      have := hinj _ hn
      rw [← this, Equiv.apply_symm_apply])
  have key' : upd (u.rowMajor.symm (u.rowMajor j)) = upd j := by rw [Equiv.symm_apply_apply]
  exact key.trans key'

/-- A scatter whose body returns the update, read at an index no update index lands on:
    the result there is the operand. -/
theorem scatter_set_miss (d : ScatterDims s si u) (x : s.Idx → α) (idx : IVec si w) (upd : u.Idx → α)
    (i : s.Idx) (h : ∀ j, d.resultIdx? j idx ≠ some i) :
    Host.scatter d (fun _ b => b) x idx upd i = x i := by
  unfold Host.scatter
  exact foldl_miss
    (fun (r : s.Idx → α) (n : Fin u.numel) =>
      match d.resultIdx? (u.rowMajor.symm n) idx with
      | some i0 => fun i' => if i' = i0 then (fun (_ b : α) => b) (r i0) (upd (u.rowMajor.symm n)) else r i'
      | none => r)
    i (fun n => d.resultIdx? (u.rowMajor.symm n) idx = some i)
    (by
      intro r n hn
      revert hn
      generalize d.resultIdx? (u.rowMajor.symm n) idx = o
      intro hn
      cases o with
      | none => rfl
      | some i0 =>
        have hne : i ≠ i0 := fun e => hn (by rw [e])
        exact if_neg hne)
    (List.finRange u.numel) x (fun n _ => h _)

end Scatter

/-! ## One whole window written at a fixed start -/

section Window
variable {A B H W w : Nat} {si : Shape} {α : Type}

/-- When every update index's window starts at (r0, c0), its window coordinates are its own
    coordinates, and the H x W window at (r0, c0) lies inside the A x B array, update index j lands
    on the array index (r0 + j 0, c0 + j 1). -/
theorem resultIdx?_window (d : ScatterDims ⟨2, ![A, B]⟩ si ⟨2, ![H, W]⟩) (idx : IVec si w) (r0 c0 : Nat)
    (hwin : ∀ (j : (⟨2, ![H, W]⟩ : Shape).Idx) (a : Fin 2), d.window j a = (j a).val)
    (hs0 : ∀ j, d.start j idx 0 = (r0 : Int)) (hs1 : ∀ j, d.start j idx 1 = (c0 : Int))
    (hA : r0 + H ≤ A) (hB : c0 + W ≤ B) (j : (⟨2, ![H, W]⟩ : Shape).Idx) :
    d.resultIdx? j idx
      = some (ix2 ⟨r0 + (j 0).val, by have := idx2_lt0 j; omega⟩ ⟨c0 + (j 1).val, by have := idx2_lt1 j; omega⟩) := by
  have h0 : d.start j idx 0 + (d.window j 0 : Int) = ((r0 + (j 0).val : Nat) : Int) := by
    rw [hs0, hwin]; push_cast; rfl
  have h1 : d.start j idx 1 + (d.window j 1 : Int) = ((c0 + (j 1).val : Nat) : Int) := by
    rw [hs1, hwin]; push_cast; rfl
  have hj0 := idx2_lt0 j
  have hj1 := idx2_lt1 j
  unfold ScatterDims.resultIdx?
  rw [dif_pos (by
    intro a
    match a with
    | ⟨0, _⟩ =>
      show 0 ≤ d.start j idx 0 + (d.window j 0 : Int) ∧ d.start j idx 0 + (d.window j 0 : Int) < (A : Int)
      rw [h0]; omega
    | ⟨1, _⟩ =>
      show 0 ≤ d.start j idx 1 + (d.window j 1 : Int) ∧ d.start j idx 1 + (d.window j 1 : Int) < (B : Int)
      rw [h1]; omega)]
  congr 1
  funext a
  match a with
  | ⟨0, _⟩ =>
    apply Fin.ext
    show (d.start j idx 0 + (d.window j 0 : Int)).toNat = r0 + (j 0).val
    rw [h0]; exact Int.toNat_natCast _
  | ⟨1, _⟩ =>
    apply Fin.ext
    show (d.start j idx 1 + (d.window j 1 : Int)).toNat = c0 + (j 1).val
    rw [h1]; exact Int.toNat_natCast _

/-- One whole H x W window written at start (r0, c0) into an A x B array by a scatter whose body
    returns the update: at (p, q) inside the window the result is the update at (p - r0, q - c0), and
    at (p, q) outside the window it is the operand. -/
theorem scatter_window_apply (d : ScatterDims ⟨2, ![A, B]⟩ si ⟨2, ![H, W]⟩) (idx : IVec si w) (r0 c0 : Nat)
    (hwin : ∀ (j : (⟨2, ![H, W]⟩ : Shape).Idx) (a : Fin 2), d.window j a = (j a).val)
    (hs0 : ∀ j, d.start j idx 0 = (r0 : Int)) (hs1 : ∀ j, d.start j idx 1 = (c0 : Int))
    (hA : r0 + H ≤ A) (hB : c0 + W ≤ B)
    (x : (⟨2, ![A, B]⟩ : Shape).Idx → α) (upd : (⟨2, ![H, W]⟩ : Shape).Idx → α) (p : Fin A) (q : Fin B) :
    Host.scatter d (fun _ b => b) x idx upd (ix2 p q)
      = if h : (r0 ≤ p.val ∧ p.val < r0 + H) ∧ (c0 ≤ q.val ∧ q.val < c0 + W) then
          upd (ix2 ⟨p.val - r0, by omega⟩ ⟨q.val - c0, by omega⟩)
        else x (ix2 p q) := by
  have hres := resultIdx?_window d idx r0 c0 hwin hs0 hs1 hA hB
  -- an update index that lands on (p, q) has coordinates (p - r0, q - c0)
  have hcoord : ∀ j, d.resultIdx? j idx = some (ix2 p q) → r0 + (j 0).val = p.val ∧ c0 + (j 1).val = q.val := by
    intro j hj
    rw [hres j] at hj
    have e := Option.some.inj hj
    exact ⟨congrArg Fin.val (congrFun e 0), congrArg Fin.val (congrFun e 1)⟩
  by_cases h : (r0 ≤ p.val ∧ p.val < r0 + H) ∧ (c0 ≤ q.val ∧ q.val < c0 + W)
  · rw [dif_pos h]
    apply scatter_set_hit d x idx upd
    · rw [hres]
      congr 1
      funext a
      match a with
      | ⟨0, _⟩ => apply Fin.ext; show r0 + (p.val - r0) = p.val; omega
      | ⟨1, _⟩ => apply Fin.ext; show c0 + (q.val - c0) = q.val; omega
    · intro j' hj'
      obtain ⟨e0, e1⟩ := hcoord j' hj'
      funext a
      match a with
      | ⟨0, _⟩ => apply Fin.ext; show (j' 0).val = p.val - r0; omega
      | ⟨1, _⟩ => apply Fin.ext; show (j' 1).val = q.val - c0; omega
  · rw [dif_neg h]
    apply scatter_set_miss d x idx upd
    intro j hj
    obtain ⟨e0, e1⟩ := hcoord j hj
    have hj0 := idx2_lt0 j
    have hj1 := idx2_lt1 j
    exact h ⟨⟨by omega, by omega⟩, ⟨by omega, by omega⟩⟩

end Window

end Cert.Lib.WindowScatter
-- ==== Proof.LibScatterGather.lean ====
/-
  THE HOST'S ACCUMULATING SCATTER AND ITS ROW GATHER, READ AT ONE INDEX, for every size of the arrays.

  Two index patterns, each for a matrix of rows and for a flat array:

  * SCATTER-ADD OF ROWS. An operand `x : [N, C]`, a column of start words `idx : [M, 1]` and updates `upd : [M, C]`;
    update row `e` is added onto operand row `idx[e, 0]`, the word read as a SIGNED integer and NOT clamped: a start
    outside `[0, N)` drops the row. At the extended reals the result at `(v, f)` is therefore
        x (v, f) + Σ_{e : idx[e,0] = v} upd (e, f),
    the sum over exactly those `e` whose start word, read signed, is `v` (`scatterAdd_rows_apply`). The flat form, an
    operand `[N]` with updates `[M]`, is the same statement without the column coordinate (`scatterAdd_flat_apply`).
  * GATHER OF ROWS. An operand `x : [N, C]` and the same column of start words; result row `e` is operand row
    `idx[e, 0]`, the word read signed and CLAMPED into `[0, N − 1]` (`gather_rows_apply`); the flat form reads one
    element (`gather_flat_apply`).

  The proofs evaluate the dimension numbers' coordinate maps — which operand axis reads which update or result axis —
  once, for symbolic sizes: only the ranks, which are literals, decide them. For the scatter the set of update indices
  landing on `(v, f)` is then `{(e, f) | idx[e,0] = v}`, and the sum over it is re-indexed along `e ↦ (e, f)`.
-/
import Idealize.ShloMosaic.PureOps.Ideal
import Idealize.ShloMosaic.Lib.ValueIdx

noncomputable section

open scoped BigOperators

namespace Cert.Lib.ScatterGather

open Idealize.ShloMosaic Idealize.ShloMosaic.ValueIdx

/-! ## Scatter-add of rows: operand `[N, C]`, start words `[M, 1]`, updates `[M, C]` -/

/-- The dimension numbers of a row scatter: update axis 1 is the window axis and goes to operand axis 1; operand axis 0
    is inserted and receives the start index, whose single component is read along axis 1 of the start words. Their
    conditions `wf` are decided on literal sizes. -/
abbrev rowScatterDims (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

section Rows
variable {N M C w : Nat} (wf : ScatterDims.WF ⟨2, ![N, C]⟩ ⟨2, ![M, 1]⟩ ⟨2, ![M, C]⟩ [1] [0] [0] 1)

/-- On operand axis 0 the window of update `(e, g)` starts at the start word of row `e`, read signed. -/
theorem rows_start0 (idx : IVec ⟨2, ![M, 1]⟩ w) (e : Fin M) (g : Fin C) :
    (rowScatterDims N M C wf).start (ix2 e g) idx 0 = (idx (ix2 e (0 : Fin 1))).toInt := by
  unfold ScatterDims.start
  rw [dif_pos (show (0 : Fin 2) ∈ (rowScatterDims N M C wf).scatterDimsToOperandDims from List.mem_singleton.mpr rfl)]
  have hsi : (rowScatterDims N M C wf).siIdx (ix2 e g) ⟨List.idxOf (0 : Fin 2) (rowScatterDims N M C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1, which the start index does not name, every window starts at `0`. -/
theorem rows_start1 (idx : IVec ⟨2, ![M, 1]⟩ w) (j : (⟨2, ![M, C]⟩ : Shape).Idx) :
    (rowScatterDims N M C wf).start j idx 1 = 0 := rfl

/-- Operand axis 0 is inserted: the window coordinate there is `0`. -/
theorem rows_window0 (j : (⟨2, ![M, C]⟩ : Shape).Idx) : (rowScatterDims N M C wf).window j 0 = 0 := rfl

/-- On operand axis 1 the window coordinate is the update's column. -/
theorem rows_window1 (j : (⟨2, ![M, C]⟩ : Shape).Idx) : (rowScatterDims N M C wf).window j 1 = (j 1).val := rfl

/-- WHERE AN UPDATE LANDS: update `(e, g)` lands on `(v, f)` exactly when the start word of row `e`, read signed, is `v`
    and `g = f`; a start word outside `[0, N)` lands nowhere. -/
theorem rows_resultIdx?_eq_some_iff (idx : IVec ⟨2, ![M, 1]⟩ w) (e : Fin M) (g : Fin C) (v : Fin N) (f : Fin C) :
    (rowScatterDims N M C wf).resultIdx? (ix2 e g) idx = some (ix2 v f)
      ↔ (idx (ix2 e (0 : Fin 1))).toInt = (v.val : ℤ) ∧ g = f := by
  have hs0 := rows_start0 wf idx e g
  have hs1 := rows_start1 wf idx (ix2 e g)
  have hw0 := rows_window0 wf (ix2 e g)
  have hw1 := rows_window1 wf (ix2 e g)
  have hg : ((ix2 e g : (⟨2, ![M, C]⟩ : Shape).Idx) 1).val = g.val := rfl
  have hvN : v.val < N := v.isLt
  have hgC : g.val < C := g.isLt
  have hsz0 : (⟨2, ![N, C]⟩ : Shape).size 0 = N := rfl
  have hsz1 : (⟨2, ![N, C]⟩ : Shape).size 1 = C := rfl
  unfold ScatterDims.resultIdx?
  split
  · rename_i h
    rw [Option.some.injEq]
    constructor
    · intro hfun
      have h0 := congrArg Fin.val (congrFun hfun 0)
      have h1 := congrArg Fin.val (congrFun hfun 1)
      have hv0 : ((ix2 v f : (⟨2, ![N, C]⟩ : Shape).Idx) 0).val = v.val := rfl
      have hf1 : ((ix2 v f : (⟨2, ![N, C]⟩ : Shape).Idx) 1).val = f.val := rfl
      simp only [hs0, hs1, hw0, hw1, hg, hv0, hf1] at h0 h1
      have hh := (h 0).1
      simp only [hs0, hw0] at hh
      refine ⟨by omega, Fin.ext (by omega)⟩
    · rintro ⟨ht, rfl⟩
      funext a
      refine Fin.ext ?_
      match a with
      | ⟨0, _⟩ =>
        show ((rowScatterDims N M C wf).start (ix2 e g) idx 0 + ((rowScatterDims N M C wf).window (ix2 e g) 0 : ℕ)).toNat = v.val
        rw [hs0, hw0, ht]; simp
      | ⟨1, _⟩ =>
        show ((rowScatterDims N M C wf).start (ix2 e g) idx 1 + ((rowScatterDims N M C wf).window (ix2 e g) 1 : ℕ)).toNat = g.val
        rw [hs1, hw1, hg]; simp
  · rename_i h
    constructor
    · intro hc; exact absurd hc (by simp)
    · rintro ⟨ht, rfl⟩
      exfalso; apply h
      intro a
      match a with
      | ⟨0, _⟩ =>
        show 0 ≤ (rowScatterDims N M C wf).start (ix2 e g) idx 0 + ((rowScatterDims N M C wf).window (ix2 e g) 0 : ℕ) ∧
          (rowScatterDims N M C wf).start (ix2 e g) idx 0 + ((rowScatterDims N M C wf).window (ix2 e g) 0 : ℕ) < ((⟨2, ![N, C]⟩ : Shape).size 0 : ℕ)
        rw [hs0, hw0, ht, hsz0]; omega
      | ⟨1, _⟩ =>
        show 0 ≤ (rowScatterDims N M C wf).start (ix2 e g) idx 1 + ((rowScatterDims N M C wf).window (ix2 e g) 1 : ℕ) ∧
          (rowScatterDims N M C wf).start (ix2 e g) idx 1 + ((rowScatterDims N M C wf).window (ix2 e g) 1 : ℕ) < ((⟨2, ![N, C]⟩ : Shape).size 1 : ℕ)
        rw [hs1, hw1, hg, hsz1]; omega

/-- THE ROW SCATTER-ADD READ AT `(v, f)`: the operand there plus the sum of `upd (e, f)` over the rows `e` whose start
    word, read signed, is `v`. -/
theorem scatterAdd_rows_apply {φ : FTy} (x : FVec Ideal ⟨2, ![N, C]⟩ φ) (idx : IVec ⟨2, ![M, 1]⟩ w)
    (upd : FVec Ideal ⟨2, ![M, C]⟩ φ) (v : Fin N) (f : Fin C) :
    Host.scatterAdd (rowScatterDims N M C wf) x idx upd (ix2 v f)
      = x (ix2 v f) + ∑ e ∈ Finset.univ.filter (fun e : Fin M => (idx (ix2 e (0 : Fin 1))).toInt = (v.val : ℤ)),
          upd (ix2 e f) := by
  show x (ix2 v f) + ∑ j ∈ Finset.univ.filter (fun j => (rowScatterDims N M C wf).resultIdx? j idx = some (ix2 v f)), upd j = _
  congr 1
  refine Finset.sum_nbij' (fun j => j 0) (fun e => ix2 e f) ?_ ?_ ?_ ?_ ?_
  · intro j hj
    obtain ⟨e, g, rfl⟩ : ∃ e g, j = ix2 e g := ⟨j 0, j 1, eq_ix2 j⟩
    rw [Finset.mem_filter] at hj
    show e ∈ _
    exact Finset.mem_filter.2 ⟨Finset.mem_univ _, ((rows_resultIdx?_eq_some_iff wf idx e g v f).1 hj.2).1⟩
  · intro e he
    rw [Finset.mem_filter] at he ⊢
    exact ⟨Finset.mem_univ _, (rows_resultIdx?_eq_some_iff wf idx e f v f).2 ⟨he.2, rfl⟩⟩
  · intro j hj
    obtain ⟨e, g, rfl⟩ : ∃ e g, j = ix2 e g := ⟨j 0, j 1, eq_ix2 j⟩
    rw [Finset.mem_filter] at hj
    obtain ⟨-, rfl⟩ := (rows_resultIdx?_eq_some_iff wf idx e g v f).1 hj.2
    rfl
  · intro e _
    rfl
  · intro j hj
    obtain ⟨e, g, rfl⟩ : ∃ e g, j = ix2 e g := ⟨j 0, j 1, eq_ix2 j⟩
    rw [Finset.mem_filter] at hj
    obtain ⟨-, rfl⟩ := (rows_resultIdx?_eq_some_iff wf idx e g v f).1 hj.2
    rfl

end Rows

/-! ## Scatter-add into a flat array: operand `[N]`, start words `[M, 1]`, updates `[M]` -/

/-- The dimension numbers of a flat scatter: no window axis; operand axis 0 is inserted and receives the start index,
    whose single component is read along axis 1 of the start words. -/
abbrev flatScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

section Flat
variable {N M w : Nat} (wf : ScatterDims.WF ⟨1, ![N]⟩ ⟨2, ![M, 1]⟩ ⟨1, ![M]⟩ [] [0] [0] 1)

/-- The window of update `e` starts at the start word of row `e`, read signed. -/
theorem flat_start0 (idx : IVec ⟨2, ![M, 1]⟩ w) (e : Fin M) :
    (flatScatterDims N M wf).start (ix1 e) idx 0 = (idx (ix2 e (0 : Fin 1))).toInt := by
  unfold ScatterDims.start
  rw [dif_pos (show (0 : Fin 1) ∈ (flatScatterDims N M wf).scatterDimsToOperandDims from List.mem_singleton.mpr rfl)]
  have hsi : (flatScatterDims N M wf).siIdx (ix1 e) ⟨List.idxOf (0 : Fin 1) (flatScatterDims N M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is inserted: the window coordinate is `0`. -/
theorem flat_window0 (j : (⟨1, ![M]⟩ : Shape).Idx) : (flatScatterDims N M wf).window j 0 = 0 := rfl

/-- WHERE AN UPDATE LANDS: update `e` lands on `v` exactly when the start word of row `e`, read signed, is `v`. -/
theorem flat_resultIdx?_eq_some_iff (idx : IVec ⟨2, ![M, 1]⟩ w) (e : Fin M) (v : Fin N) :
    (flatScatterDims N M wf).resultIdx? (ix1 e) idx = some (ix1 v)
      ↔ (idx (ix2 e (0 : Fin 1))).toInt = (v.val : ℤ) := by
  have hs0 := flat_start0 wf idx e
  have hw0 := flat_window0 wf (ix1 e)
  have hvN : v.val < N := v.isLt
  have hsz0 : (⟨1, ![N]⟩ : Shape).size 0 = N := rfl
  unfold ScatterDims.resultIdx?
  split
  · rename_i h
    rw [Option.some.injEq]
    constructor
    · intro hfun
      have h0 := congrArg Fin.val (congrFun hfun 0)
      have hv0 : ((ix1 v : (⟨1, ![N]⟩ : Shape).Idx) 0).val = v.val := rfl
      simp only [hs0, hw0, hv0] at h0
      have hh := (h 0).1
      simp only [hs0, hw0] at hh
      omega
    · intro ht
      funext a
      refine Fin.ext ?_
      match a with
      | ⟨0, _⟩ =>
        show ((flatScatterDims N M wf).start (ix1 e) idx 0 + ((flatScatterDims N M wf).window (ix1 e) 0 : ℕ)).toNat = v.val
        rw [hs0, hw0, ht]; simp
  · rename_i h
    constructor
    · intro hc; exact absurd hc (by simp)
    · intro ht
      exfalso; apply h
      intro a
      match a with
      | ⟨0, _⟩ =>
        show 0 ≤ (flatScatterDims N M wf).start (ix1 e) idx 0 + ((flatScatterDims N M wf).window (ix1 e) 0 : ℕ) ∧
          (flatScatterDims N M wf).start (ix1 e) idx 0 + ((flatScatterDims N M wf).window (ix1 e) 0 : ℕ) < ((⟨1, ![N]⟩ : Shape).size 0 : ℕ)
        rw [hs0, hw0, ht, hsz0]; omega

/-- THE FLAT SCATTER-ADD READ AT `v`: the operand there plus the sum of `upd e` over the `e` whose start word, read
    signed, is `v`. -/
theorem scatterAdd_flat_apply {φ : FTy} (x : FVec Ideal ⟨1, ![N]⟩ φ) (idx : IVec ⟨2, ![M, 1]⟩ w)
    (upd : FVec Ideal ⟨1, ![M]⟩ φ) (v : Fin N) :
    Host.scatterAdd (flatScatterDims N M wf) x idx upd (ix1 v)
      = x (ix1 v) + ∑ e ∈ Finset.univ.filter (fun e : Fin M => (idx (ix2 e (0 : Fin 1))).toInt = (v.val : ℤ)),
          upd (ix1 e) := by
  show x (ix1 v) + ∑ j ∈ Finset.univ.filter (fun j => (flatScatterDims N M wf).resultIdx? j idx = some (ix1 v)), upd j = _
  congr 1
  refine Finset.sum_nbij' (fun j => j 0) (fun e => ix1 e) ?_ ?_ ?_ ?_ ?_
  · intro j hj
    obtain ⟨e, rfl⟩ : ∃ e, j = ix1 e := ⟨j 0, eq_ix1 j⟩
    rw [Finset.mem_filter] at hj
    show e ∈ _
    exact Finset.mem_filter.2 ⟨Finset.mem_univ _, (flat_resultIdx?_eq_some_iff wf idx e v).1 hj.2⟩
  · intro e he
    rw [Finset.mem_filter] at he ⊢
    exact ⟨Finset.mem_univ _, (flat_resultIdx?_eq_some_iff wf idx e v).2 he.2⟩
  · intro j _
    exact (eq_ix1 j).symm
  · intro e _
    rfl
  · intro j _
    exact congrArg upd (eq_ix1 j)

end Flat

/-! ## Gather of rows: operand `[N, C]`, start words `[M, 1]`, result `[M, C]` -/

/-- The dimension numbers of a row gather: result axis 1 is the offset axis and reads operand axis 1 over its whole
    width `C`; operand axis 0 is collapsed (a slice of one row) and receives the start index, whose single component is
    read along axis 1 of the start words. Their conditions `wf` are decided on literal sizes. -/
abbrev rowGatherDims (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, f)`: the operand at column `f` of the row named by the start word of row `e`, read
    signed and clamped into `[0, N − 1]`. -/
theorem gather_rows_apply {α : Type} {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (f : Fin C) :
    Host.gather (rowGatherDims N M C wf) x idx (ix2 e f)
      = x (ix2 (⟨min (idx (ix2 e (0 : Fin 1))).toInt.toNat (N - 1), by omega⟩ : Fin N) f) := by
  unfold Host.gather
  congr 1
  funext a
  refine Fin.ext ?_
  match a with
  | ⟨0, _⟩ =>
    show (rowGatherDims N M C wf).start (ix2 e f) idx 0 + (rowGatherDims N M C wf).batchCoord (ix2 e f) 0
      + (rowGatherDims N M C wf).offCoord (ix2 e f) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M C wf).startIndexMap from List.mem_singleton.mpr rfl)]
    have hsi : (rowGatherDims N M C wf).siIdx (ix2 e f) ⟨List.idxOf (0 : Fin 2) (rowGatherDims N M C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N M C wf).start (ix2 e f) idx 1 + (rowGatherDims N M C wf).batchCoord (ix2 e f) 1
      + (rowGatherDims N M C wf).offCoord (ix2 e f) 1 = f.val
    rw [GatherDims.batchCoord_eq_zero _ _ _ List.not_mem_nil]
    have hst : (rowGatherDims N M C wf).start (ix2 e f) idx 1 = 0 := rfl
    have hoff : (rowGatherDims N M C wf).offCoord (ix2 e f) 1 = f.val := rfl
    rw [hst, hoff]; simp

/-! ## Gather from a flat array: operand `[N]`, start words `[M, 1]`, result `[M]` -/

/-- The dimension numbers of a flat gather: no offset axis; the one operand axis is collapsed and receives the start
    index, whose single component is read along axis 1 of the start words. -/
abbrev flatGatherDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE FLAT GATHER READ AT `e`: the operand at the start word of row `e`, read signed and clamped into `[0, N − 1]`. -/
theorem gather_flat_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatGatherDims N M wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (flatGatherDims N M wf).start (ix1 e) idx 0 + (flatGatherDims N M wf).batchCoord (ix1 e) 0
    + (flatGatherDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N M wf).startIndexMap from List.mem_singleton.mpr rfl)]
  have hsi : (flatGatherDims N M wf).siIdx (ix1 e) ⟨List.idxOf (0 : Fin 1) (flatGatherDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## A record written out at literal sizes is the generic one -/

/-- At literal sizes the dimension numbers written out field by field, their conditions decided, are the generic record:
    the two agree field for field, and the conditions are a proposition. -/
example :
    ({ updateWindowDims := [1], insertedWindowDims := [0], scatterDimsToOperandDims := [0], indexVectorDim := 1,
       wf := by decide } : ScatterDims ⟨2, ![50000, 64]⟩ ⟨2, ![850000, 1]⟩ ⟨2, ![850000, 64]⟩)
      = rowScatterDims 50000 850000 64 (by decide) := rfl

/-- Likewise for a gather's. -/
example :
    ({ offsetDims := [1], collapsedSliceDims := [0], operandBatchingDims := [], startIndicesBatchingDims := [],
       startIndexMap := [0], indexVectorDim := 1, sliceSizes := ![1, 64],
       wf := by decide } : GatherDims ⟨2, ![50000, 64]⟩ ⟨2, ![800000, 1]⟩ ⟨2, ![800000, 64]⟩)
      = rowGatherDims 50000 800000 64 (by decide) := rfl

end Cert.Lib.ScatterGather

end
-- ==== Proof.LibColumnScatter.lean ====
/-
  A scatter whose body returns the update, where SEVERAL updates may land on one index, and the
  COLUMN forms of the host's gather and scatter.

  * The host's scatter is a left fold of point updates over the update's indices. When the body keeps
    the update and drops the old value, and every update that lands on an index i carries one and the
    same value v, the result at i is v as soon as one update lands there, whatever the order and the
    number of such updates (`scatter_set_hit_same`). With repeated start words this is all one can say,
    and it is enough whenever the written value depends on the landing place only.
  * COLUMNS. An operand `x : [R, N]`, a column of start words `idx : [M, 1]` and updates `[R, M]`:
    update column `e` is written over operand column `idx[e, 0]`, the word read as a SIGNED integer and
    NOT clamped (a start outside `[0, N)` drops the column): `cols_resultIdx?_eq_some_iff`. The
    matching gather reads operand column `idx[e, 0]`, the word read signed and CLAMPED into
    `[0, N - 1]`: `gather_cols_apply`.
  * Two closed forms follow. Writing `f` of the gathered columns back over the columns they came from
    leaves `f (x (o, k))` at every column `k` some start word names and `x (o, k)` elsewhere, however
    often a column is named (`scatter_cols_map_gather_hit` / `_miss`): for a named column is in range, so
    the clamp did not move it. And a constant `c` scattered into a flat array leaves `c` at the named
    places and the operand elsewhere (`scatter_flat_const_hit` / `_miss`): the indicator of the named set.
-/
import Idealize.ShloMosaic.PureOps.Ideal
import Idealize.ShloMosaic.Lib.ValueIdx
import proofs.«118857_j61555471286542_1_alg».proof.Proof.LibWindowScatter
import proofs.«118857_j61555471286542_1_alg».proof.Proof.LibScatterGather

noncomputable section

namespace Cert.Lib.ColumnScatter

open Idealize.ShloMosaic Idealize.ShloMosaic.ValueIdx

/-! ## A left fold of point updates in which every update that lands writes the same value -/

/-- A left fold whose step writes `v` at `i` for the list members in `P` and leaves the value at `i` alone for the
    others ends with `v` at `i`, as soon as the starting array has `v` there or some member is in `P`. -/
theorem foldl_hit_same {ι κ α : Type} (g : (ι → α) → κ → (ι → α)) (i : ι) (P : κ → Prop) (v : α)
    (hmiss : ∀ r n, ¬ P n → g r n i = r i) (hhit : ∀ r n, P n → g r n i = v) :
    ∀ (l : List κ) (x : ι → α), (x i = v ∨ ∃ n ∈ l, P n) → l.foldl g x i = v := by
  intro l
  induction l with
  | nil =>
    intro x h
    rcases h with h | ⟨n, hn, _⟩
    · exact h
    · simp at hn
  | cons a l ih =>
    intro x h
    rw [List.foldl_cons]
    apply ih
    by_cases hPa : P a
    · exact Or.inl (hhit x a hPa)
    · rcases h with h | ⟨n, hn, hPn⟩
      · exact Or.inl ((hmiss x a hPa).trans h)
      · rcases List.mem_cons.1 hn with rfl | hn'
        · exact absurd hPn hPa
        · exact Or.inr ⟨n, hn', hPn⟩

/-- A scatter whose body returns the update, read at an index on which at least one update lands, all
    the updates landing there carrying the value `v`: the result there is `v`. -/
theorem scatter_set_hit_same {s si u : Shape} {w : Nat} {α : Type} (d : ScatterDims s si u) (x : s.Idx → α)
    (idx : IVec si w) (upd : u.Idx → α) (i : s.Idx) (v : α) (hex : ∃ j, d.resultIdx? j idx = some i)
    (hall : ∀ j, d.resultIdx? j idx = some i → upd j = v) :
    Host.scatter d (fun _ b => b) x idx upd i = v := by
  unfold Host.scatter
  obtain ⟨j0, hj0⟩ := hex
  refine foldl_hit_same
    (fun (r : s.Idx → α) (n : Fin u.numel) =>
      match d.resultIdx? (u.rowMajor.symm n) idx with
      | some i0 => fun i' => if i' = i0 then (fun (_ b : α) => b) (r i0) (upd (u.rowMajor.symm n)) else r i'
      | none => r)
    i (fun n => d.resultIdx? (u.rowMajor.symm n) idx = some i) v ?_ ?_ (List.finRange u.numel) x
    (Or.inr ⟨u.rowMajor j0, List.mem_finRange _, by
      show d.resultIdx? (u.rowMajor.symm (u.rowMajor j0)) idx = some i
      rw [Equiv.symm_apply_apply]; exact hj0⟩)
  · intro r n hn
    revert hn
    generalize d.resultIdx? (u.rowMajor.symm n) idx = o
    intro hn
    cases o with
    | none => rfl
    | some i0 =>
      have hne : i ≠ i0 := fun e => hn (by rw [e])
      exact if_neg hne
  · intro r n hn
    have hv := hall _ hn
    revert hn
    generalize d.resultIdx? (u.rowMajor.symm n) idx = o
    intro hn
    subst hn
    exact (if_pos rfl).trans hv

/-! ## Scatter of columns: operand `[R, N]`, start words `[M, 1]`, updates `[R, M]` -/

/-- The dimension numbers of a column scatter: update axis 0 is the window axis and goes to operand axis 0; operand
    axis 1 is inserted and receives the start index, whose single component is read along axis 1 of the start words. -/
abbrev colScatterDims (R N M : Nat) (wf : ScatterDims.WF ⟨2, ![R, N]⟩ ⟨2, ![M, 1]⟩ ⟨2, ![R, M]⟩ [0] [1] [1] 1) :
    ScatterDims ⟨2, ![R, N]⟩ ⟨2, ![M, 1]⟩ ⟨2, ![R, M]⟩ where
  updateWindowDims := [0]
  insertedWindowDims := [1]
  scatterDimsToOperandDims := [1]
  indexVectorDim := 1
  wf := wf

section Cols
variable {R N M w : Nat} (wf : ScatterDims.WF ⟨2, ![R, N]⟩ ⟨2, ![M, 1]⟩ ⟨2, ![R, M]⟩ [0] [1] [1] 1)

/-- On operand axis 1 the window of update `(o, e)` starts at the start word of row `e`, read signed. -/
theorem cols_start1 (idx : IVec ⟨2, ![M, 1]⟩ w) (o : Fin R) (e : Fin M) :
    (colScatterDims R N M wf).start (ix2 o e) idx 1 = (idx (ix2 e (0 : Fin 1))).toInt := by
  unfold ScatterDims.start
  rw [dif_pos (show (1 : Fin 2) ∈ (colScatterDims R N M wf).scatterDimsToOperandDims from List.mem_singleton.mpr rfl)]
  have hsi : (colScatterDims R N M wf).siIdx (ix2 o e) ⟨List.idxOf (1 : Fin 2) (colScatterDims R N M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 0, which the start index does not name, every window starts at `0`. -/
theorem cols_start0 (idx : IVec ⟨2, ![M, 1]⟩ w) (j : (⟨2, ![R, M]⟩ : Shape).Idx) :
    (colScatterDims R N M wf).start j idx 0 = 0 := rfl

/-- Operand axis 1 is inserted: the window coordinate there is `0`. -/
theorem cols_window1 (j : (⟨2, ![R, M]⟩ : Shape).Idx) : (colScatterDims R N M wf).window j 1 = 0 := rfl

/-- On operand axis 0 the window coordinate is the update's row. -/
theorem cols_window0 (j : (⟨2, ![R, M]⟩ : Shape).Idx) : (colScatterDims R N M wf).window j 0 = (j 0).val := rfl

/-- WHERE AN UPDATE LANDS: update `(o, e)` lands on `(o', v)` exactly when the start word of row `e`, read signed, is
    `v` and `o = o'`; a start word outside `[0, N)` lands nowhere. -/
theorem cols_resultIdx?_eq_some_iff (idx : IVec ⟨2, ![M, 1]⟩ w) (o : Fin R) (e : Fin M) (o' : Fin R) (v : Fin N) :
    (colScatterDims R N M wf).resultIdx? (ix2 o e) idx = some (ix2 o' v)
      ↔ (idx (ix2 e (0 : Fin 1))).toInt = (v.val : ℤ) ∧ o = o' := by
  have hs1 := cols_start1 wf idx o e
  have hs0 := cols_start0 wf idx (ix2 o e)
  have hw1 := cols_window1 wf (ix2 o e)
  have hw0 := cols_window0 wf (ix2 o e)
  have ho : ((ix2 o e : (⟨2, ![R, M]⟩ : Shape).Idx) 0).val = o.val := rfl
  have hvN : v.val < N := v.isLt
  have hoR : o.val < R := o.isLt
  have hsz0 : (⟨2, ![R, N]⟩ : Shape).size 0 = R := rfl
  have hsz1 : (⟨2, ![R, N]⟩ : Shape).size 1 = N := rfl
  unfold ScatterDims.resultIdx?
  split
  · rename_i h
    rw [Option.some.injEq]
    constructor
    · intro hfun
      have h0 := congrArg Fin.val (congrFun hfun 0)
      have h1 := congrArg Fin.val (congrFun hfun 1)
      have ho0 : ((ix2 o' v : (⟨2, ![R, N]⟩ : Shape).Idx) 0).val = o'.val := rfl
      have hv1 : ((ix2 o' v : (⟨2, ![R, N]⟩ : Shape).Idx) 1).val = v.val := rfl
      simp only [hs0, hs1, hw0, hw1, ho, ho0, hv1] at h0 h1
      have hh := (h 1).1
      simp only [hs1, hw1] at hh
      refine ⟨by omega, Fin.ext (by omega)⟩
    · rintro ⟨ht, rfl⟩
      funext a
      refine Fin.ext ?_
      match a with
      | ⟨0, _⟩ =>
        show ((colScatterDims R N M wf).start (ix2 o e) idx 0 + ((colScatterDims R N M wf).window (ix2 o e) 0 : ℕ)).toNat = o.val
        rw [hs0, hw0, ho]; simp
      | ⟨1, _⟩ =>
        show ((colScatterDims R N M wf).start (ix2 o e) idx 1 + ((colScatterDims R N M wf).window (ix2 o e) 1 : ℕ)).toNat = v.val
        rw [hs1, hw1, ht]; simp
  · rename_i h
    constructor
    · intro hc; exact absurd hc (by simp)
    · rintro ⟨ht, rfl⟩
      exfalso; apply h
      intro a
      match a with
      | ⟨0, _⟩ =>
        show 0 ≤ (colScatterDims R N M wf).start (ix2 o e) idx 0 + ((colScatterDims R N M wf).window (ix2 o e) 0 : ℕ) ∧
          (colScatterDims R N M wf).start (ix2 o e) idx 0 + ((colScatterDims R N M wf).window (ix2 o e) 0 : ℕ) < ((⟨2, ![R, N]⟩ : Shape).size 0 : ℕ)
        rw [hs0, hw0, ho, hsz0]; omega
      | ⟨1, _⟩ =>
        show 0 ≤ (colScatterDims R N M wf).start (ix2 o e) idx 1 + ((colScatterDims R N M wf).window (ix2 o e) 1 : ℕ) ∧
          (colScatterDims R N M wf).start (ix2 o e) idx 1 + ((colScatterDims R N M wf).window (ix2 o e) 1 : ℕ) < ((⟨2, ![R, N]⟩ : Shape).size 1 : ℕ)
        rw [hs1, hw1, ht, hsz1]; omega

end Cols

/-! ## Gather of columns: operand `[R, N]`, start words `[M, 1]`, result `[R, M]` -/

/-- The dimension numbers of a column gather: result axis 0 is the offset axis and reads operand axis 0 over its whole
    height `R`; operand axis 1 is collapsed (a slice of one column) and receives the start index, whose single component
    is read along axis 1 of the start words. -/
abbrev colGatherDims (R N M : Nat) (wf : GatherDims.WF ⟨2, ![R, N]⟩ ⟨2, ![M, 1]⟩ ⟨2, ![R, M]⟩ [0] [1] [] [1] [] 1 ![R, 1]) :
    GatherDims ⟨2, ![R, N]⟩ ⟨2, ![M, 1]⟩ ⟨2, ![R, M]⟩ where
  offsetDims := [0]
  collapsedSliceDims := [1]
  operandBatchingDims := []
  startIndicesBatchingDims := []
  startIndexMap := [1]
  indexVectorDim := 1
  sliceSizes := ![R, 1]
  wf := wf

/-- THE COLUMN GATHER READ AT `(o, e)`: the operand at row `o` of the column named by the start word of row `e`, read
    signed and clamped into `[0, N − 1]`. -/
theorem gather_cols_apply {α : Type} {R N M w : Nat} (hN : 0 < N)
    (wf : GatherDims.WF ⟨2, ![R, N]⟩ ⟨2, ![M, 1]⟩ ⟨2, ![R, M]⟩ [0] [1] [] [1] [] 1 ![R, 1])
    (x : (⟨2, ![R, N]⟩ : Shape).Idx → α) (idx : IVec ⟨2, ![M, 1]⟩ w) (o : Fin R) (e : Fin M) :
    Host.gather (colGatherDims R N M wf) x idx (ix2 o e)
      = x (ix2 o (⟨min (idx (ix2 e (0 : Fin 1))).toInt.toNat (N - 1), by omega⟩ : Fin N)) := by
  unfold Host.gather
  congr 1
  funext a
  refine Fin.ext ?_
  match a with
  | ⟨0, _⟩ =>
    show (colGatherDims R N M wf).start (ix2 o e) idx 0 + (colGatherDims R N M wf).batchCoord (ix2 o e) 0
      + (colGatherDims R N M wf).offCoord (ix2 o e) 0 = o.val
    rw [GatherDims.batchCoord_eq_zero _ _ _ List.not_mem_nil]
    have hst : (colGatherDims R N M wf).start (ix2 o e) idx 0 = 0 := rfl
    have hoff : (colGatherDims R N M wf).offCoord (ix2 o e) 0 = o.val := rfl
    rw [hst, hoff]; simp
  | ⟨1, _⟩ =>
    show (colGatherDims R N M wf).start (ix2 o e) idx 1 + (colGatherDims R N M wf).batchCoord (ix2 o e) 1
      + (colGatherDims R N M wf).offCoord (ix2 o e) 1 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colGatherDims R N M wf).startIndexMap from List.mem_singleton.mpr rfl)]
    have hsi : (colGatherDims R N M wf).siIdx (ix2 o e) ⟨List.idxOf (1 : Fin 2) (colGatherDims R N M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-! ## Writing a function of the gathered columns back over them -/

section MapBack
variable {α : Type} {R N M w : Nat}
  (wfs : ScatterDims.WF ⟨2, ![R, N]⟩ ⟨2, ![M, 1]⟩ ⟨2, ![R, M]⟩ [0] [1] [1] 1)
  (wfg : GatherDims.WF ⟨2, ![R, N]⟩ ⟨2, ![M, 1]⟩ ⟨2, ![R, M]⟩ [0] [1] [] [1] [] 1 ![R, 1])

/-- A column `k` that some start word names: the columns gathered at the start words, mapped through `f` and written
    back at the same start words, leave `f (x (o, k))` there — every update that lands on column `k` was gathered from
    column `k` itself, the clamp not moving a start that is in range. -/
theorem scatter_cols_map_gather_hit (hN : 0 < N) (f : α → α) (x : (⟨2, ![R, N]⟩ : Shape).Idx → α) (idx : IVec ⟨2, ![M, 1]⟩ w)
    (o : Fin R) (k : Fin N) (h : ∃ e : Fin M, (idx (ix2 e (0 : Fin 1))).toInt = (k.val : ℤ)) :
    Host.scatter (colScatterDims R N M wfs) (fun _ b => b) x idx
        (fun j => f (Host.gather (colGatherDims R N M wfg) x idx j)) (ix2 o k) = f (x (ix2 o k)) := by
  obtain ⟨e, he⟩ := h
  refine scatter_set_hit_same _ x idx _ (ix2 o k) _
    ⟨ix2 o e, (cols_resultIdx?_eq_some_iff wfs idx o e o k).2 ⟨he, rfl⟩⟩ ?_
  intro j hj
  obtain ⟨o', e', rfl⟩ : ∃ (o' : Fin R) (e' : Fin M), j = ix2 o' e' := ⟨j 0, j 1, eq_ix2 j⟩
  obtain ⟨he', rfl⟩ := (cols_resultIdx?_eq_some_iff wfs idx o' e' o k).1 hj
  show f (Host.gather (colGatherDims R N M wfg) x idx (ix2 o' e')) = f (x (ix2 o' k))
  rw [gather_cols_apply hN wfg x idx o' e']
  have hk : (⟨min (idx (ix2 e' (0 : Fin 1))).toInt.toNat (N - 1), by omega⟩ : Fin N) = k := by
    apply Fin.ext
    show min (idx (ix2 e' (0 : Fin 1))).toInt.toNat (N - 1) = k.val
    rw [he']
    have := k.isLt
    omega
  rw [hk]

/-- A column `k` that no start word names keeps the operand. -/
theorem scatter_cols_map_gather_miss (upd : (⟨2, ![R, M]⟩ : Shape).Idx → α) (x : (⟨2, ![R, N]⟩ : Shape).Idx → α)
    (idx : IVec ⟨2, ![M, 1]⟩ w) (o : Fin R) (k : Fin N) (h : ¬ ∃ e : Fin M, (idx (ix2 e (0 : Fin 1))).toInt = (k.val : ℤ)) :
    Host.scatter (colScatterDims R N M wfs) (fun _ b => b) x idx upd (ix2 o k) = x (ix2 o k) := by
  refine Cert.Lib.WindowScatter.scatter_set_miss _ x idx upd (ix2 o k) ?_
  intro j hj
  obtain ⟨o', e', rfl⟩ : ∃ (o' : Fin R) (e' : Fin M), j = ix2 o' e' := ⟨j 0, j 1, eq_ix2 j⟩
  exact h ⟨e', ((cols_resultIdx?_eq_some_iff wfs idx o' e' o k).1 hj).1⟩

end MapBack

/-! ## A constant scattered into a flat array: the indicator of the named places -/

section FlatConst
variable {α : Type} {N M w : Nat} (wf : ScatterDims.WF ⟨1, ![N]⟩ ⟨2, ![M, 1]⟩ ⟨1, ![M]⟩ [] [0] [0] 1)

/-- A place `k` that some start word names holds the scattered constant. -/
theorem scatter_flat_const_hit (x : (⟨1, ![N]⟩ : Shape).Idx → α) (idx : IVec ⟨2, ![M, 1]⟩ w) (c : α) (k : Fin N)
    (h : ∃ e : Fin M, (idx (ix2 e (0 : Fin 1))).toInt = (k.val : ℤ)) :
    Host.scatter (Cert.Lib.ScatterGather.flatScatterDims N M wf) (fun _ b => b) x idx (fun _ => c) (ix1 k) = c := by
  obtain ⟨e, he⟩ := h
  exact scatter_set_hit_same _ x idx _ (ix1 k) c
    ⟨ix1 e, (Cert.Lib.ScatterGather.flat_resultIdx?_eq_some_iff wf idx e k).2 he⟩ (fun _ _ => rfl)

/-- A place `k` that no start word names keeps the operand. -/
theorem scatter_flat_const_miss (upd : (⟨1, ![M]⟩ : Shape).Idx → α) (x : (⟨1, ![N]⟩ : Shape).Idx → α)
    (idx : IVec ⟨2, ![M, 1]⟩ w) (k : Fin N) (h : ¬ ∃ e : Fin M, (idx (ix2 e (0 : Fin 1))).toInt = (k.val : ℤ)) :
    Host.scatter (Cert.Lib.ScatterGather.flatScatterDims N M wf) (fun _ b => b) x idx upd (ix1 k) = x (ix1 k) := by
  refine Cert.Lib.WindowScatter.scatter_set_miss _ x idx upd (ix1 k) ?_
  intro j hj
  obtain ⟨e', rfl⟩ : ∃ e' : Fin M, j = ix1 e' := ⟨j 0, eq_ix1 j⟩
  exact h ⟨e', (Cert.Lib.ScatterGather.flat_resultIdx?_eq_some_iff wf idx e' k).1 hj⟩

end FlatConst

end Cert.Lib.ColumnScatter

end
-- ==== Proof.KernelEntry.lean ====
/-
  The arrays the kernel's region is launched on, as the host operations before it leave them.

  Before the region the program marks the named columns: it scatters the constant one, at the normalised index words,
  into a zero vector of length 2048 (a word outside the range is dropped, a repeated word writes one again), so the
  mask is one exactly at the named columns. Comparing the mask with zero and selecting between `W · W` and `W` along
  every row gives the weights with the named columns squared; the change of float format that follows is the identity
  here. The bias is recast as a row `[1, 4096]` and the draws as a column `[8192, 1]`.
-/
import proofs.«118857_j61555471286542_1_alg».proof.Proof.Gen.KernelIdeal.Frame
import proofs.«118857_j61555471286542_1_alg».proof.Proof.GroupGate
import proofs.«118857_j61555471286542_1_alg».proof.Proof.LibColumnScatter
import Idealize.ShloMosaic.Lib.Pipeline.Value
import Idealize.ShloMosaic.Lib.StableHlo.Run
import Idealize.ShloMosaic.Lib.ValueIdx

noncomputable section

namespace Cert.KernelIdeal.Entry

open Cert.KernelIdeal Cert.KernelIdeal.Gen Idealize.ShloMosaic Idealize.ShloMosaic.TcCoe Idealize.SL.Sem
open Idealize.ShloMosaic.ValueIdx Idealize.ShloMosaic.StableHlo
open Cert.GroupGate Cert.Lib.ColumnScatter

/-! ## The host operations as functions of the arguments -/

/-- The index words, normalised: a negative word is moved up by 2048; one word per row of a `[512, 1]` column. -/
def nidx (x4 : IVec S512 32) : IVec S512x1 32 :=
  broadcastInDim S512x1 ![0] bcast_S512_S512x1_0
    (select (cmpi .slt x4 (broadcastInDim S512 ![] bcast_S_S512 (constantI S_ 32 0#32)))
      (addi x4 (broadcastInDim S512 ![] bcast_S_S512 (constantI S_ 32 2048#32))) x4)

/-- The mask: one scattered into zeros at the index words. -/
def mask (x4 : IVec S512 32) : FVec Ideal S2048 .f32 :=
  Host.scatter scatter_S2048_S512x1_S512_n_0_0_1 (fun _ b => b)
    (broadcastInDim S2048 ![] bcast_S_S2048 (constant (F := Ideal) S_ .f32 0x00000000#32)) (nidx x4)
    (broadcastInDim S512 ![] bcast_S_S512 (constant (F := Ideal) S_ .f32 0x3F800000#32))

/-- The test `mask > 0`, as a row. -/
def maskBit (x4 : IVec S512 32) : IVec S1x2048 1 :=
  cmpf .ogt (broadcastInDim S1x2048 ![1] bcast_S2048_S1x2048_1 (mask x4))
    (broadcastInDim S1x2048 ![] bcast_S_S1x2048 (constant (F := Ideal) S_ .f32 0x00000000#32))

/-- The weights the region is launched on: `W · W` where the mask passes the test, `W` elsewhere. -/
def wsel (W : FVec Ideal S4096x2048 .f32) (x4 : IVec S512 32) : FVec Ideal S4096x2048 .bf16 :=
  truncf .bf16 (select (broadcastInDim S4096x2048 ![0, 1] bcast_S1x2048_S4096x2048_0_1 (maskBit x4)) (mulf W W) W) bitsLt_bf16_f32

/-! ## Read at an index -/

/-- The mask is one at a named column. -/
theorem mask_hit (x4 : IVec S512 32) (k : Fin 2048) (h : Named (nidx x4) k) :
    mask x4 (ix1 k) = FloatOps.ofBits (F := Ideal) .f32 0x3F800000#32 := by
  have hd : scatter_S2048_S512x1_S512_n_0_0_1
      = Cert.Lib.ScatterGather.flatScatterDims 2048 512 scatter_S2048_S512x1_S512_n_0_0_1_wf := rfl
  unfold mask
  rw [hd]
  exact scatter_flat_const_hit (α := EReal) (N := 2048) (M := 512) (w := 32) scatter_S2048_S512x1_S512_n_0_0_1_wf
    (broadcastInDim S2048 ![] bcast_S_S2048 (constant (F := Ideal) S_ .f32 0x00000000#32)) (nidx x4)
    (FloatOps.ofBits (F := Ideal) .f32 0x3F800000#32) k h

/-- The mask is zero at a column no word names. -/
theorem mask_miss (x4 : IVec S512 32) (k : Fin 2048) (h : ¬ Named (nidx x4) k) :
    mask x4 (ix1 k) = FloatOps.ofBits (F := Ideal) .f32 0x00000000#32 := by
  have hd : scatter_S2048_S512x1_S512_n_0_0_1
      = Cert.Lib.ScatterGather.flatScatterDims 2048 512 scatter_S2048_S512x1_S512_n_0_0_1_wf := rfl
  unfold mask
  rw [hd]
  exact scatter_flat_const_miss (α := EReal) (N := 2048) (M := 512) (w := 32) scatter_S2048_S512x1_S512_n_0_0_1_wf
    (broadcastInDim S512 ![] bcast_S_S512 (constant (F := Ideal) S_ .f32 0x3F800000#32))
    (broadcastInDim S2048 ![] bcast_S_S2048 (constant (F := Ideal) S_ .f32 0x00000000#32)) (nidx x4) k h

/-- The test at column `k` compares the mask's entry `k` with zero. -/
theorem maskBit_apply (x4 : IVec S512 32) (k : Fin 2048) :
    maskBit x4 (ix2 (0 : Fin 1) k)
      = FloatOps.cmpf (F := Ideal) (φ := .f32) .ogt (mask x4 (ix1 k)) (FloatOps.ofBits (F := Ideal) .f32 0x00000000#32) := by
  have hM : broadcastInDim S1x2048 ![1] bcast_S2048_S1x2048_1 (mask x4) (ix2 (0 : Fin 1) k) = mask x4 (ix1 k) :=
    broadcastInDim_apply _ bcast_S2048_S1x2048_1 (mask x4) (ix2 (0 : Fin 1) k) (ix1 k) (fun a => by
      match a with
      | ⟨0, _⟩ => show k.val = if (2048 : ℕ) = 1 then 0 else k.val; rw [if_neg (by decide)])
  show FloatOps.cmpf (F := Ideal) (φ := .f32) .ogt (broadcastInDim S1x2048 ![1] bcast_S2048_S1x2048_1 (mask x4) (ix2 (0 : Fin 1) k)) _ = _
  rw [hM]
  rfl

/-- Entry `(o, k)` of the launched weights: squared at a named column, kept elsewhere. -/
theorem wsel_apply (W : FVec Ideal S4096x2048 .f32) (x4 : IVec S512 32) (o : Fin 4096) (k : Fin 2048) :
    wsel W x4 (ix2 o k) = sqCols W (nidx x4) o k := by
  have hB : broadcastInDim S4096x2048 ![0, 1] bcast_S1x2048_S4096x2048_0_1 (maskBit x4) (ix2 o k) = maskBit x4 (ix2 (0 : Fin 1) k) :=
    broadcastInDim_apply _ bcast_S1x2048_S4096x2048_0_1 (maskBit x4) (ix2 o k) (ix2 (0 : Fin 1) k) (fun a => by
      match a with
      | ⟨0, _⟩ => show (0 : ℕ) = if (1 : ℕ) = 1 then 0 else _; rw [if_pos rfl]
      | ⟨1, _⟩ => show k.val = if (2048 : ℕ) = 1 then 0 else k.val; rw [if_neg (by decide)])
  show Scalar.select (broadcastInDim S4096x2048 ![0, 1] bcast_S1x2048_S4096x2048_0_1 (maskBit x4) (ix2 o k))
      (W (ix2 o k) * W (ix2 o k)) (W (ix2 o k)) = _
  rw [hB, maskBit_apply]
  unfold sqCols
  by_cases h : Named (nidx x4) k
  · rw [mask_hit x4 k h, one_gt_zero_bit, select_one, if_pos h]
  · rw [mask_miss x4 k h, zero_gt_zero_bit, select_zero, if_neg h]

/-! ## The region's entry contents -/

variable (m : (ℓ : Loc nD τ sig) → Buf (Elt Ideal) ℓ)

set_option maxHeartbeats 2000000 in
/-- The launched weights are `wsel` of the weight and index arguments. -/
theorem V_weights (c : Dev nD) :
    (V m c main_v14 : S4096x2048.Idx → EReal)
      = wsel (m ((c : Thread nD τ).loc main_arg1)) (m ((c : Thread nD τ).loc main_arg4)) := by
  dsimp only [V]
  simp only [hostOps0, hostOps0_1, hostOps0_2, List.flatten_cons, List.flatten_nil, List.append_nil, List.cons_append,
    List.nil_append]
  after_results_simp <;> rfl

set_option maxHeartbeats 2000000 in
/-- The launched bias row is the bias argument recast. -/
theorem V_bias (c : Dev nD) :
    (V m c main_v15 : S1x4096.Idx → EReal)
      = shapeCast S1x4096 (m ((c : Thread nD τ).loc main_arg2) : S4096.Idx → EReal) shapeCasts_S4096_S1x4096 := by
  dsimp only [V]
  simp only [hostOps0, hostOps0_1, hostOps0_2, List.flatten_cons, List.flatten_nil, List.append_nil, List.cons_append,
    List.nil_append]
  after_results_simp <;> rfl

set_option maxHeartbeats 2000000 in
/-- The launched draw column is the draw argument recast. -/
theorem V_draws (c : Dev nD) :
    (V m c main_v16 : S8192x1.Idx → EReal)
      = shapeCast S8192x1 (m ((c : Thread nD τ).loc main_arg3) : S8192.Idx → EReal) shapeCasts_S8192_S8192x1 := by
  dsimp only [V]
  simp only [hostOps0, hostOps0_1, hostOps0_2, List.flatten_cons, List.flatten_nil, List.append_nil, List.cons_append,
    List.nil_append]
  after_results_simp <;> rfl

/-- Entry `(0, o)` of the launched bias row is bias `o`. -/
theorem V_bias_apply (c : Dev nD) (o : Fin 4096) :
    (V m c main_v15 : S1x4096.Idx → EReal) (ix2 (0 : Fin 1) o)
      = (m ((c : Thread nD τ).loc main_arg2) : S4096.Idx → EReal) (ix1 o) := by
  rw [V_bias]
  exact shapeCast_apply _ shapeCasts_S4096_S1x4096 (ix2 (0 : Fin 1) o) (ix1 o) (by
    rw [Shape.rowMajor_val_one, Shape.rowMajor_val_two]
    show o.val = 0 * 4096 + o.val
    omega)

/-- Entry `(b, 0)` of the launched draw column is draw `b`. -/
theorem V_draws_apply (c : Dev nD) (b : Fin 8192) (z : Fin 1) :
    (V m c main_v16 : S8192x1.Idx → EReal) (ix2 b z)
      = (m ((c : Thread nD τ).loc main_arg3) : S8192.Idx → EReal) (ix1 b) := by
  rw [V_draws]
  exact shapeCast_apply _ shapeCasts_S8192_S8192x1 (ix2 b z) (ix1 b) (by
    rw [Shape.rowMajor_val_one, Shape.rowMajor_val_two]
    show b.val = b.val * 1 + z.val
    have := z.isLt; omega)

end Cert.KernelIdeal.Entry

end
-- ==== Proof.KernelWhole.lean ====
/-
  The kernel's result array: every block is the matching block of one function of the arguments.

  The region runs at 16 points. Point `t` reads rows `512 t … 512 t + 511` of `x` and of the draw column, the whole
  weight array and the whole bias row (their index maps are constant), and writes rows `512 t … 512 t + 511` of the
  result. What it writes at row `p` of its block is the row function of row `512 t + p`, so block `t` of the result
  is block `t` of the specified array; the 16 blocks cover the 8192 rows (row `r` lies in block `r / 512`), so the whole
  result array is the specified one.
-/
import proofs.«118857_j61555471286542_1_alg».proof.Proof.Gen.KernelIdeal.Value
import proofs.«118857_j61555471286542_1_alg».proof.Proof.KernelPayload
import proofs.«118857_j61555471286542_1_alg».proof.Proof.KernelEntry
import proofs.«118857_j61555471286542_1_alg».proof.Proof.GroupGate
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)
open Cert.GroupGate

variable (m : (ℓ : Loc nD τ sig) → Buf (Elt Ideal) ℓ) (ρ : Dev nD → PrngReg)

/-- The specified result on core `c`: the row function of the launch contents of the arguments, the index words
    normalised as the program normalises them. -/
def res (c : Dev nD) : S8192x1.Idx → EReal :=
  result (m ((c : Thread nD τ).loc main_arg0)) (m ((c : Thread nD τ).loc main_arg1)) (m ((c : Thread nD τ).loc main_arg2))
    (m ((c : Thread nD τ).loc main_arg3)) (Entry.nidx (m ((c : Thread nD τ).loc main_arg4)))

theorem origin : (![0, 0] : Fin 2 → Nat) = fun _ => 0 := funext fun a => by fin_cases a <;> rfl

/-- The printed index maps over the grid: the `x`, draw and result windows move down one block per point; the weight and
    bias windows stay. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row `p` of point `t`'s block is row `512 t + p` of the array. -/
def rowOf (t : Fin cfg0.N) (p : Fin 512) : Fin 8192 :=
  ⟨t.val * 512 + p.val, by have ht : t.val < 16 := lt_of_lt_of_eq t.isLt N_0; have := p.isLt; omega⟩

/-! ## The blocks the body loads, and where it stores -/

/-- Row `p` of the `x` block at point `t` is row `512 t + p` of `x`. -/
theorem x_block (c : Dev nD) (t : Fin cfg0.N) (p : Fin 512) (k : Fin 2048) :
    iblk m c 0 t (ix2 p k) = (V m c main_arg0 : S8192x2048.Idx → EReal) (ix2 (rowOf t p) k) := by
  obtain ⟨e0, e1, -⟩ := index_maps t
  show (V m c main_arg0 : S8192x2048.Idx → EReal) (((cfg0.win 0).blk t).view.emb (ix2 p k)) = _
  refine congrArg (V m c main_arg0 : S8192x2048.Idx → EReal) (funext fun a => Fin.ext ?_)
  match a with
  | ⟨0, _⟩ => show win0_0.index t (0 : Fin 2) * 512 + 1 * p.val = t.val * 512 + p.val; rw [e0]; omega
  | ⟨1, _⟩ => show win0_0.index t (1 : Fin 2) * 2048 + 1 * k.val = k.val; rw [e1]; omega

/-- The weight block at every point is the whole launched weight array. -/
theorem w_block (c : Dev nD) (t : Fin cfg0.N) (o : Fin 4096) (k : Fin 2048) :
    iblk m c 1 t (ix2 o k) = (V m c main_v14 : S4096x2048.Idx → EReal) (ix2 o k) := by
  obtain ⟨-, -, e0, e1, -⟩ := index_maps t
  show (V m c main_v14 : S4096x2048.Idx → EReal) (((cfg0.win 1).blk t).view.emb (ix2 o k)) = _
  refine congrArg (V m c main_v14 : S4096x2048.Idx → EReal) (funext fun a => Fin.ext ?_)
  match a with
  | ⟨0, _⟩ => show win0_1.index t (0 : Fin 2) * 4096 + 1 * o.val = o.val; rw [e0]; omega
  | ⟨1, _⟩ => show win0_1.index t (1 : Fin 2) * 2048 + 1 * k.val = k.val; rw [e1]; omega

/-- The bias block at every point is the whole launched bias row. -/
theorem b_block (c : Dev nD) (t : Fin cfg0.N) (o : Fin 4096) :
    iblk m c 2 t (ix2 (0 : Fin 1) o) = (V m c main_v15 : S1x4096.Idx → EReal) (ix2 (0 : Fin 1) o) := by
  obtain ⟨-, -, -, -, e0, e1, -⟩ := index_maps t
  show (V m c main_v15 : S1x4096.Idx → EReal) (((cfg0.win 2).blk t).view.emb (ix2 (0 : Fin 1) o)) = _
  refine congrArg (V m c main_v15 : S1x4096.Idx → EReal) (funext fun a => Fin.ext ?_)
  match a with
  | ⟨0, _⟩ => show win0_2.index t (0 : Fin 2) * 1 + 1 * 0 = 0; rw [e0]
  | ⟨1, _⟩ => show win0_2.index t (1 : Fin 2) * 4096 + 1 * o.val = o.val; rw [e1]; omega

/-- Row `p` of the draw block at point `t` is row `512 t + p` of the launched draw column. -/
theorem r_block (c : Dev nD) (t : Fin cfg0.N) (p : Fin 512) (z : Fin 1) :
    iblk m c 3 t (ix2 p z) = (V m c main_v16 : S8192x1.Idx → EReal) (ix2 (rowOf t p) z) := by
  obtain ⟨-, -, -, -, -, -, e0, e1, -⟩ := index_maps t
  show (V m c main_v16 : S8192x1.Idx → EReal) (((cfg0.win 3).blk t).view.emb (ix2 p z)) = _
  refine congrArg (V m c main_v16 : S8192x1.Idx → EReal) (funext fun a => Fin.ext ?_)
  match a with
  | ⟨0, _⟩ => show win0_3.index t (0 : Fin 2) * 512 + 1 * p.val = t.val * 512 + p.val; rw [e0]; omega
  | ⟨1, _⟩ => show win0_3.index t (1 : Fin 2) * 1 + 1 * z.val = z.val; rw [e1]; omega

/-- Entry `(p, 0)` of the result block at point `t` is entry `(512 t + p, 0)` of the result array. -/
theorem out_place (t : Fin cfg0.N) (p : Fin 512) (z : Fin 1) :
    (((cfg0.win 4).blk t).view.emb (ix2 p z) : S8192x1.Idx) = ix2 (rowOf t p) z := by
  obtain ⟨-, -, -, -, -, -, -, -, e0, e1⟩ := index_maps t
  refine funext fun a => Fin.ext ?_
  match a with
  | ⟨0, _⟩ => show win0_4.index t (0 : Fin 2) * 512 + 1 * p.val = t.val * 512 + p.val; rw [e0]; omega
  | ⟨1, _⟩ => show win0_4.index t (1 : Fin 2) * 1 + 1 * z.val = z.val; rw [e1]; omega

/-! ## What point `t` writes back -/

/-- The body's stored value at row `p` of point `t`'s block is the specified result at row `512 t + p`. -/
theorem block_entry (c : Dev nD) (t : Fin cfg0.N) (p : Fin 512) (z : Fin 1) :
    k0_pay1 (F := Ideal) (iblk m c 0 t) (iblk m c 1 t) (iblk m c 2 t) (iblk m c 3 t) (ix2 p z)
      = res m c (ix2 (rowOf t p) z) := by
  refine (Payload.pay_apply (iblk m c 0 t) (iblk m c 1 t) (iblk m c 2 t) (iblk m c 3 t) p z).trans ?_
  unfold res
  rw [result_apply]
  have h0 : (fun k : Fin 2048 => iblk m c 0 t (ix2 p k))
      = fun k => ((m ((c : Thread nD τ).loc main_arg0)) : S8192x2048.Idx → EReal) (ix2 (rowOf t p) k) :=
    funext fun k => (x_block m c t p k).trans (congrFun (V_main_arg0 m c) _)
  have h1 : (fun (o : Fin 4096) (k : Fin 2048) => iblk m c 1 t (ix2 o k))
      = sqCols (m ((c : Thread nD τ).loc main_arg1)) (Entry.nidx (m ((c : Thread nD τ).loc main_arg4))) :=
    funext fun o => funext fun k => (w_block m c t o k).trans
      ((congrFun (Entry.V_weights m c) _).trans (Entry.wsel_apply _ _ o k))
  have h2 : (fun o : Fin 4096 => iblk m c 2 t (ix2 (0 : Fin 1) o))
      = fun o => ((m ((c : Thread nD τ).loc main_arg2)) : S4096.Idx → EReal) (ix1 o) :=
    funext fun o => (b_block m c t o).trans (Entry.V_bias_apply m c o)
  have h3 : iblk m c 3 t (ix2 p z) = ((m ((c : Thread nD τ).loc main_arg3)) : S8192.Idx → EReal) (ix1 (rowOf t p)) :=
    (r_block m c t p z).trans (Entry.V_draws_apply m c (rowOf t p) z)
  rw [h0, h1, h2, h3]

/-- WHAT POINT `t` WRITES BACK is block `t` of the specified result. -/
theorem flushed_eq (c : Dev nD) (t : Fin cfg0.N) :
    (dats m 0 c).flushed 4 t = ((cfg0.win 4).blk t).view.read (Elt Ideal) (res m c) := by
  show (cfg0.win 4).cut (grid0.coords t) ((dats m 0 c).after 4 t) = _
  rw [after0_4]
  unfold out0_4
  rw [View.canon_unit_zero origin]
  simp only [View.ld_unit_zero (S := S512x2048) origin, View.ld_unit_zero (S := S4096x2048) origin,
    View.ld_unit_zero (S := S1x4096) origin, View.ld_unit_zero (S := S512x1) origin]
  funext j
  have hj0 : (j 0).val < 512 := (j 0).isLt
  have hj1 : (j 1).val < 1 := (j 1).isLt
  obtain ⟨p, z, rfl⟩ : ∃ (p : Fin 512) (z : Fin 1), j = ix2 p z :=
    ⟨⟨(j 0).val, hj0⟩, ⟨(j 1).val, hj1⟩, funext fun a => Fin.ext (by
      match a with
      | ⟨0, _⟩ => rfl
      | ⟨1, _⟩ => rfl)⟩
  show k0_pay1 (F := Ideal) (iblk m c 0 t) (iblk m c 1 t) (iblk m c 2 t) (iblk m c 3 t) (ix2 p z)
    = res m c (((cfg0.win 4).blk t).view.emb (ix2 p z))
  rw [out_place t p z]
  exact block_entry m c t p z

/-! ## The blocks cover the array -/

/-- An index of the result array is in point `t`'s block iff each coordinate is in the block's range on its axis. -/
theorem mem_blk (t : Fin cfg0.N) (i : S8192x1.Idx) :
    i ∈ ((cfg0.win 4).blk t).view.set ↔ ∀ a : Fin 2, win0_4.index t a * S512x1.size a ≤ (i a).val
      ∧ (i a).val < win0_4.index t a * S512x1.size a + S512x1.size a := by
  show i ∈ ((View.whole main_v17).slice (win0_4.rect t)).set ↔ _
  rw [View.set_slice_whole, Rect.mem_set_unit]
  exact Iff.rfl

/-- Row `r` of the result lies in the block of point `r / 512`. -/
theorem cover (i : S8192x1.Idx) :
    ∃ t : Fin cfg0.N, (cfg0.win 4).flush t = true ∧ i ∈ ((cfg0.win 4).blk t).view.set := by
  have hi0 : (i 0).val < 8192 := (i 0).isLt
  have hi1 : (i 1).val < 1 := (i 1).isLt
  have hlt : (i 0).val / 512 < cfg0.N := lt_of_lt_of_eq (by omega : (i 0).val / 512 < 16) N_0.symm
  obtain ⟨-, -, -, -, -, -, -, -, e0, e1⟩ := index_maps ⟨(i 0).val / 512, hlt⟩
  refine ⟨⟨(i 0).val / 512, hlt⟩, flush0_4 _, ?_⟩
  rw [mem_blk]
  intro a
  match a with
  | ⟨0, _⟩ =>
    show win0_4.index ⟨(i 0).val / 512, hlt⟩ (0 : Fin 2) * 512 ≤ (i 0).val
      ∧ (i 0).val < win0_4.index ⟨(i 0).val / 512, hlt⟩ (0 : Fin 2) * 512 + 512
    rw [e0]
    show (i 0).val / 512 * 512 ≤ (i 0).val ∧ (i 0).val < (i 0).val / 512 * 512 + 512
    omega
  | ⟨1, _⟩ =>
    show win0_4.index ⟨(i 0).val / 512, hlt⟩ (1 : Fin 2) * 1 ≤ (i 1).val
      ∧ (i 1).val < win0_4.index ⟨(i 0).val / 512, hlt⟩ (1 : Fin 2) * 1 + 1
    rw [e1]
    omega

/-! ## The run -/

/-- THE ARRAY after the run is the specified result. -/
theorem final (c : Dev nD) : (dats m 0 c).arrAt 4 cfg0.N = res m c :=
  (dats m 0 c).arrAt_eq_of_cover 4 (res m c) (fun t _ => flushed_eq m c t) cover

/-- The kernel's run: the result array ends at the specified result, the arguments unchanged. -/
theorem run : θ_run defs (onTc (τ := τ) (main (F := Ideal))) ⟨m, fun _ => 0, ρ⟩ fun r => ∀ c : Dev nD,
      r.2.mem ((c : Thread nD τ).loc main_v17) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.RefValue.lean ====
/-
  The reference's result is the row function of its arguments.

  The reference gathers the weight columns the index words name, squares them, and scatters them back over the same
  columns: a named column ends squared (every write onto it carries that column's own square, so repeats do not
  matter; a word outside the range is clamped by the gather but dropped by the scatter, so it changes nothing), every
  other column is kept. Then each batch row's 4096 affine scores against these weights are regrouped as 64 groups
  of 64, reduced by the minimum inside a group and the maximum over the groups, and `1 / (1 + exp (−score))`, which
  is the logistic at every extended real, is compared with the row's draw.
-/
import proofs.«118857_j61555471286542_1_alg».proof.Proof.Gen.ReferenceIdeal.Read
import proofs.«118857_j61555471286542_1_alg».proof.Proof.GroupGate
import proofs.«118857_j61555471286542_1_alg».proof.Proof.LibFoldLast
import proofs.«118857_j61555471286542_1_alg».proof.Proof.LibColumnScatter
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.GroupGate Cert.Lib.ColumnScatter

/-! ## The weights after the gather, the squaring and the scatter -/

/-- Entry `(o, k)` of the scattered weights: squared when column `k` is named, kept when it is not. -/
theorem sq_weights (x1 : (⟨S4096x2048, .f32⟩ : BufTy).Contents (Elt Ideal)) (x4 : (⟨S512, .i32⟩ : BufTy).Contents (Elt Ideal))
    (o : Fin 4096) (k : Fin 2048) :
    val_main_v14 (F := Ideal) x1 x4 (ix2 o k) = sqCols x1 (val_main_v13 (F := Ideal) x4) o k := by
  have hs : scatter_S4096x2048_S512x1_S4096x512_0_1_1_1
      = colScatterDims 4096 2048 512 scatter_S4096x2048_S512x1_S4096x512_0_1_1_1_wf := rfl
  have hg : gather_S4096x2048_S512x1_S4096x512_0_1_n_n_1_1_40961
      = colGatherDims 4096 2048 512 gather_S4096x2048_S512x1_S4096x512_0_1_n_n_1_1_40961_wf := rfl
  have e5 : val_main_v5 (F := Ideal) x4 = val_main_v13 (F := Ideal) x4 := rfl
  have e7 : val_main_v7 (F := Ideal) x1 x4
      = fun j => (fun a : EReal => FloatOps.mulf (F := Ideal) (φ := .f32) a a)
          (Host.gather (colGatherDims 4096 2048 512 gather_S4096x2048_S512x1_S4096x512_0_1_n_n_1_1_40961_wf) x1
            (val_main_v13 (F := Ideal) x4) j) := by
    unfold val_main_v7 val_main_v6
    rw [hg, e5]
    rfl
  unfold val_main_v14
  rw [hs, e7]
  unfold sqCols
  by_cases h : Named (val_main_v13 (F := Ideal) x4) k
  · rw [if_pos h]
    exact scatter_cols_map_gather_hit (α := EReal) (R := 4096) (N := 2048) (M := 512) (w := 32)
      scatter_S4096x2048_S512x1_S4096x512_0_1_1_1_wf gather_S4096x2048_S512x1_S4096x512_0_1_n_n_1_1_40961_wf (by decide)
      (fun a : EReal => FloatOps.mulf (F := Ideal) (φ := .f32) a a) x1 (val_main_v13 (F := Ideal) x4) o k h
  · rw [if_neg h]
    exact scatter_cols_map_gather_miss (α := EReal) (R := 4096) (N := 2048) (M := 512) (w := 32)
      scatter_S4096x2048_S512x1_S4096x512_0_1_1_1_wf _ x1 (val_main_v13 (F := Ideal) x4) o k h

/-! ## One row -/

/-- The affine score of row `b` and unit `o`. -/
theorem affine_at (x0 : (⟨S8192x2048, .f32⟩ : BufTy).Contents (Elt Ideal)) (x1 : (⟨S4096x2048, .f32⟩ : BufTy).Contents (Elt Ideal))
    (x2 : (⟨S4096, .f32⟩ : BufTy).Contents (Elt Ideal)) (x4 : (⟨S512, .i32⟩ : BufTy).Contents (Elt Ideal))
    (b : Fin 8192) (o : Fin 4096) :
    val_main_v18 (F := Ideal) x0 x1 x2 x4 (ix2 b o)
      = (∑ k : Fin 2048, x0 (ix2 b k) * val_main_v14 (F := Ideal) x1 x4 (ix2 o k)) + x2 (ix1 o) := by
  have el : ∀ k, lidx_main_v15 (ix2 b o) k = ix2 b k := fun k => funext fun a => Fin.ext (by
    match a with
    | ⟨0, _⟩ => rfl
    | ⟨1, _⟩ => rfl)
  have er : ∀ k, ridx_main_v15 (ix2 b o) k = ix2 o k := fun k => funext fun a => Fin.ext (by
    match a with
    | ⟨0, _⟩ => rfl
    | ⟨1, _⟩ => rfl)
  have eb : idx_main_v16 (idx_main_v17 (ix2 b o)) = ix1 o := funext fun a => Fin.ext (by
    match a with
    | ⟨0, _⟩ => rfl)
  rw [val_main_v18_apply, val_main_v15_apply, val_main_v17_apply, val_main_v16_apply, eb]
  simp only [el, er]
  rfl

/-- Entry `(b, g, s)` of the regrouped scores is score `64 g + s` of row `b`. -/
theorem regroup_at (x0 : (⟨S8192x2048, .f32⟩ : BufTy).Contents (Elt Ideal)) (x1 : (⟨S4096x2048, .f32⟩ : BufTy).Contents (Elt Ideal))
    (x2 : (⟨S4096, .f32⟩ : BufTy).Contents (Elt Ideal)) (x4 : (⟨S512, .i32⟩ : BufTy).Contents (Elt Ideal))
    (b : Fin 8192) (g s : Fin 64) :
    val_main_v19 (F := Ideal) x0 x1 x2 x4 (ix3 b g s)
      = val_main_v18 (F := Ideal) x0 x1 x2 x4 (ix2 b (⟨g.val * 64 + s.val, by have := g.isLt; have := s.isLt; omega⟩ : Fin 4096)) := by
  rw [val_main_v19_apply]
  refine congrArg (val_main_v18 (F := Ideal) x0 x1 x2 x4) (funext fun a => Fin.ext ?_)
  have hb := b.isLt
  have hg := g.isLt
  have hs := s.isLt
  match a with
  | ⟨0, _⟩ => show ((b.val * 64 + g.val) * 64 + s.val) / 4096 = b.val; omega
  | ⟨1, _⟩ => show ((b.val * 64 + g.val) * 64 + s.val) % 4096 = g.val * 64 + s.val; omega

/-- The minimum within group `g` of row `b`. -/
theorem groupMin_at (x0 : (⟨S8192x2048, .f32⟩ : BufTy).Contents (Elt Ideal)) (x1 : (⟨S4096x2048, .f32⟩ : BufTy).Contents (Elt Ideal))
    (x2 : (⟨S4096, .f32⟩ : BufTy).Contents (Elt Ideal)) (x4 : (⟨S512, .i32⟩ : BufTy).Contents (Elt Ideal))
    (b : Fin 8192) (g : Fin 64) :
    val_main_v20 (F := Ideal) x0 x1 x2 x4 (ix2 b g)
      = (Finset.univ : Finset (Fin 64)).fold (FloatOps.minimumf (F := Ideal) (φ := .f32)) (FloatOps.ofBits (F := Ideal) .f32 0x7F800000#32)
          (fun s => val_main_v18 (F := Ideal) x0 x1 x2 x4
            (ix2 b (⟨g.val * 64 + s.val, by have := g.isLt; have := s.isLt; omega⟩ : Fin 4096))) := by
  have h := Cert.Lib.FoldLast.hostReduce_last3 (A := 8192) (B := 64) (C := 64) (FloatOps.minimumf (F := Ideal) (φ := .f32))
    (val_main_v19 (F := Ideal) x0 x1 x2 x4) (val_main_cst (F := Ideal)) reducesTo_S8192x64x64_S8192x64_d2 (by decide) h_S_ b g
  refine h.trans ?_
  exact congrArg (fun f => Finset.fold (FloatOps.minimumf (F := Ideal) (φ := .f32)) (FloatOps.ofBits (F := Ideal) .f32 0x7F800000#32) f
    (Finset.univ : Finset (Fin 64))) (funext fun s => regroup_at x0 x1 x2 x4 b g s)

/-- The maximum over the groups of the minimum within each group, for row `b`. -/
theorem score_at (x0 : (⟨S8192x2048, .f32⟩ : BufTy).Contents (Elt Ideal)) (x1 : (⟨S4096x2048, .f32⟩ : BufTy).Contents (Elt Ideal))
    (x2 : (⟨S4096, .f32⟩ : BufTy).Contents (Elt Ideal)) (x4 : (⟨S512, .i32⟩ : BufTy).Contents (Elt Ideal))
    (b : Fin 8192) :
    val_main_v21 (F := Ideal) x0 x1 x2 x4 (ix1 b)
      = groupScore (fun o => val_main_v18 (F := Ideal) x0 x1 x2 x4 (ix2 b o)) := by
  have h := Cert.Lib.FoldLast.hostReduce_last2 (A := 8192) (B := 64) (FloatOps.maximumf (F := Ideal) (φ := .f32))
    (val_main_v20 (F := Ideal) x0 x1 x2 x4) (val_main_cst_3 (F := Ideal)) reducesTo_S8192x64_S8192_d1 (by decide) h_S_ b
  refine h.trans ?_
  unfold groupScore
  exact congrArg (fun f => Finset.fold (FloatOps.maximumf (F := Ideal) (φ := .f32)) (FloatOps.ofBits (F := Ideal) .f32 0xFF800000#32) f
    (Finset.univ : Finset (Fin 64))) (funext fun g => groupMin_at x0 x1 x2 x4 b g)

/-- The probability of row `b`: the spelled-out quotient is the logistic of the row's score. -/
theorem prob_at (x0 : (⟨S8192x2048, .f32⟩ : BufTy).Contents (Elt Ideal)) (x1 : (⟨S4096x2048, .f32⟩ : BufTy).Contents (Elt Ideal))
    (x2 : (⟨S4096, .f32⟩ : BufTy).Contents (Elt Ideal)) (x4 : (⟨S512, .i32⟩ : BufTy).Contents (Elt Ideal))
    (b : Fin 8192) :
    val_main_v27 (F := Ideal) x0 x1 x2 x4 (ix1 b)
      = FloatOps.logistic (F := Ideal) (φ := .f32) (val_main_v21 (F := Ideal) x0 x1 x2 x4 (ix1 b)) := by
  rw [val_main_v27_apply, val_main_v26_apply, val_main_v25_apply, val_main_v24_apply, val_main_v23_apply, val_main_v22_apply]
  exact logistic_spelled _

/-- Entry `(b, 0)` of the reference's result is the row function of row `b` of `x`, the scattered weights, the bias
    and draw `b`. -/
theorem row_at (x0 : (⟨S8192x2048, .f32⟩ : BufTy).Contents (Elt Ideal)) (x1 : (⟨S4096x2048, .f32⟩ : BufTy).Contents (Elt Ideal))
    (x2 : (⟨S4096, .f32⟩ : BufTy).Contents (Elt Ideal)) (x4 : (⟨S512, .i32⟩ : BufTy).Contents (Elt Ideal))
    (x3 : (⟨S8192, .f32⟩ : BufTy).Contents (Elt Ideal)) (b : Fin 8192) (z : Fin 1) :
    val_main_v30 (F := Ideal) x0 x1 x2 x3 x4 (ix2 b z)
      = rowGate (fun k => x0 (ix2 b k)) (fun o k => val_main_v14 (F := Ideal) x1 x4 (ix2 o k)) (fun o => x2 (ix1 o)) (x3 (ix1 b)) := by
  have ei : idx_main_v30 (ix2 b z) = ix1 b := funext fun a => Fin.ext (by
    match a with
    | ⟨0, _⟩ => show b.val * 1 + z.val = b.val; have := z.isLt; omega)
  rw [val_main_v30_apply, ei, val_main_v29_apply, val_main_v28_apply, prob_at, score_at]
  unfold rowGate gate
  exact congrArg (fun t => FloatOps.uitofp (F := Ideal) .f32 (FloatOps.cmpf (F := Ideal) (φ := .f32) .olt (x3 (ix1 b))
    (FloatOps.logistic (F := Ideal) (φ := .f32) (groupScore t)))) (funext fun o => affine_at x0 x1 x2 x4 b o)

/-- The reference's result array is the specified one, at the normalised index words the reference itself computes. -/
theorem ref_is_result (x0 : (⟨S8192x2048, .f32⟩ : BufTy).Contents (Elt Ideal)) (x1 : (⟨S4096x2048, .f32⟩ : BufTy).Contents (Elt Ideal))
    (x2 : (⟨S4096, .f32⟩ : BufTy).Contents (Elt Ideal)) (x4 : (⟨S512, .i32⟩ : BufTy).Contents (Elt Ideal))
    (x3 : (⟨S8192, .f32⟩ : BufTy).Contents (Elt Ideal)) :
    val_main_v30 (F := Ideal) x0 x1 x2 x3 x4 = result x0 x1 x2 x3 (val_main_v13 (F := Ideal) x4) := by
  funext i
  obtain ⟨b, z, rfl⟩ : ∃ (b : Fin 8192) (z : Fin 1), i = ix2 b z := ⟨i 0, i 1, eq_ix2 i⟩
  rw [row_at, result_apply]
  exact congrArg (fun w => rowGate (fun k => x0 (ix2 b k)) w (fun o => x2 (ix1 o)) (x3 (ix1 b)))
    (funext fun o => funext fun k => sq_weights x1 x4 o k)

end Cert.ReferenceIdeal.RefValue

end
-- ==== Proof.lean ====
/- Equivalence, over the extended reals, of a fused "linear layer, group min/max, Bernoulli gate" kernel and its jnp reference.

   Both programs first square some columns of the weight matrix `W : [4096, 2048]`: the columns named by 512 index words,
   each normalised by adding 2048 when negative. The kernel marks the named columns in a mask (a scatter of ones into
   zeros) and selects between `W · W` and `W`; the reference gathers the named columns, squares them and scatters them
   back. Both leave `W (o, k)²` at a named column `k` and `W (o, k)` elsewhere: a word outside `[0, 2048)` is dropped by
   either scatter, and every write onto a column carries that column's own square, so repeated words do not matter.
   Then, for each of the 8192 batch rows, both form the 4096 affine scores `Σ_k x (b, k) · w (o, k) + bias o`, regroup them
   as 64 groups of 64, take the minimum inside each group and the maximum over the groups, and output the indicator
   of `draw b < logistic score` — the kernel by its one logistic operation and a widened bit read signed, the reference by
   `1 / (1 + exp (−score))` and the bit read unsigned, which agree at every extended real. The kernel works on 16 blocks
   of 512 rows, which tile the rows. No step uses finiteness of the inputs: the two sides are the same sums, minima and
   maxima of the same terms.

   The three frames are the generated ones (the reference's is its generated run with the result dropped). The idealized
   kernel is the kernel's own text read over the extended reals, with no operation rewritten, so the preservation claim has
   no conjunct to prove. -/
import proofs.«118857_j61555471286542_1_alg».proof.Defs
import proofs.«118857_j61555471286542_1_alg».proof.Proof.Gen.Kernel
import proofs.«118857_j61555471286542_1_alg».proof.Proof.Gen.Kernel.Skeleton
import proofs.«118857_j61555471286542_1_alg».proof.Proof.Gen.Kernel.Launch
import proofs.«118857_j61555471286542_1_alg».proof.Proof.Gen.Kernel.Points
import proofs.«118857_j61555471286542_1_alg».proof.Proof.Gen.Kernel.Frame
import proofs.«118857_j61555471286542_1_alg».proof.Proof.Gen.KernelIdeal
import proofs.«118857_j61555471286542_1_alg».proof.Proof.Gen.KernelIdeal.Skeleton
import proofs.«118857_j61555471286542_1_alg».proof.Proof.Gen.KernelIdeal.Launch
import proofs.«118857_j61555471286542_1_alg».proof.Proof.Gen.KernelIdeal.Points
import proofs.«118857_j61555471286542_1_alg».proof.Proof.Gen.KernelIdeal.Frame
import proofs.«118857_j61555471286542_1_alg».proof.Proof.Gen.ReferenceIdeal
import proofs.«118857_j61555471286542_1_alg».proof.Proof.Gen.Pre_finite_inputs
import proofs.«118857_j61555471286542_1_alg».proof.Proof.Gen.KernelIdeal.Value
import proofs.«118857_j61555471286542_1_alg».proof.Proof.Gen.ReferenceIdeal.Run
import proofs.«118857_j61555471286542_1_alg».proof.Proof.Gen.ReferenceIdeal.Read
import proofs.«118857_j61555471286542_1_alg».proof.Proof.KernelWhole
import proofs.«118857_j61555471286542_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The two programs normalise the index words by the same operations. -/
theorem nidx_eq (x4 : IVec Cert.KernelIdeal.S512 32) :
    Cert.ReferenceIdeal.Read.val_main_v13 (F := Ideal) x4 = Cert.KernelIdeal.Entry.nidx x4 := rfl

/-- Both runs end with the result array at the specified function of the (agreeing) arguments. -/
theorem algebraic : Cert.algebraic_KernelIdeal_ReferenceIdeal := by
  intro m ρ m' ρ' _ hagree
  refine ⟨fun c => Cert.KernelIdeal.Whole.res m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.RefValue.ref_is_result, nidx_eq,
    (hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
